-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S2x512x1 : Shape := ⟨3, ![2, 512, 1]⟩
abbrev S2x2x512x256 : Shape := ⟨4, ![2, 2, 512, 256]⟩
abbrev S3x2x512 : Shape := ⟨3, ![3, 2, 512]⟩
abbrev S2x256 : Shape := ⟨2, ![2, 256]⟩
abbrev S2 : Shape := ⟨1, ![2]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S2x512x1 : S_.BroadcastsInDim S2x512x1 (![] : Fin 0 → Fin S2x512x1.rank)
  reducesTo_S2x512x1_S_d0_1_2 : S2x512x1.ReducesTo [0, 1, 2] S_
  bcast_S_S2x2x512x256 : S_.BroadcastsInDim S2x2x512x256 (![] : Fin 0 → Fin S2x2x512x256.rank)
  reducesTo_S2x2x512x256_S_d0_1_2_3 : S2x2x512x256.ReducesTo [0, 1, 2, 3] S_
  bcast_S_S3x2x512 : S_.BroadcastsInDim S3x2x512 (![] : Fin 0 → Fin S3x2x512.rank)
  reducesTo_S3x2x512_S_d0_1_2 : S3x2x512.ReducesTo [0, 1, 2] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S3x2x512 .f32) (main_arg5 : FVec F S2x256 .f32) (main_arg6 : FVec F S2 .f32) (main_v13 : IVec S_ 1) (main_v16 : IVec S3x2x512 1) : IVec S_ 1 :=
  let main_c_5 : IVec S_ 1 := constantI S_ 1 1#1
  let main_v17 : IVec S_ 1 := (fun x v => Host.reduce IntOp.andi x v reducesTo_S3x2x512_S_d0_1_2 h_S_) main_v16 main_c_5
  let main_v18 : IVec S_ 1 := andi main_v13 main_v17
  let main_v19 : FVec F S3x2x512 .f32 := Host.absf main_arg4
  let main_cst_6 : FVec F S_ .f32 := constant S_ .f32 0x7F800000#32
  let main_v20 : FVec F S3x2x512 .f32 := broadcastInDim S3x2x512 ![] bcast_S_S3x2x512 main_cst_6
  let main_v21 : IVec S3x2x512 1 := cmpf .olt main_v19 main_v20
  let main_c_7 : IVec S_ 1 := constantI S_ 1 1#1
  let main_v22 : IVec S_ 1 := (fun x v => Host.reduce IntOp.andi x v reducesTo_S3x2x512_S_d0_1_2 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S32x2048 .f32) (main_arg1 : FVec F S2x512x1 .f32) (main_arg2 : FVec F S2x2x512x256 .f32) (main_arg3 : FVec F S3x2x512 .f32) (main_arg4 : FVec F S3x2x512 .f32) (main_arg5 : FVec F S2x256 .f32) (main_arg6 : FVec F S2 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S2x512x1 .f32 := Host.absf main_arg1
  let main_cst_0 : FVec F S_ .f32 := constant S_ .f32 0x7F800000#32
  let main_v5 : FVec F S2x512x1 .f32 := broadcastInDim S2x512x1 ![] bcast_S_S2x512x1 main_cst_0
  let main_v6 : IVec S2x512x1 1 := cmpf .olt main_v4 main_v5
  let main_c_1 : IVec S_ 1 := constantI S_ 1 1#1
  let main_v7 : IVec S_ 1 := (fun x v => Host.reduce IntOp.andi x v reducesTo_S2x512x1_S_d0_1_2 h_S_) main_v6 main_c_1
  let main_v8 : IVec S_ 1 := andi main_v3 main_v7
  let main_v9 : FVec F S2x2x512x256 .f32 := Host.absf main_arg2
  let main_cst_2 : FVec F S_ .f32 := constant S_ .f32 0x7F800000#32
  let main_v10 : FVec F S2x2x512x256 .f32 := broadcastInDim S2x2x512x256 ![] bcast_S_S2x2x512x256 main_cst_2
  let main_v11 : IVec S2x2x512x256 1 := cmpf .olt main_v9 main_v10
  let main_c_3 : IVec S_ 1 := constantI S_ 1 1#1
  let main_v12 : IVec S_ 1 := (fun x v => Host.reduce IntOp.andi x v reducesTo_S2x2x512x256_S_d0_1_2_3 h_S_) main_v11 main_c_3
  let main_v13 : IVec S_ 1 := andi main_v8 main_v12
  let main_v14 : FVec F S3x2x512 .f32 := Host.absf main_arg3
  let main_cst_4 : FVec F S_ .f32 := constant S_ .f32 0x7F800000#32
  let main_v15 : FVec F S3x2x512 .f32 := broadcastInDim S3x2x512 ![] bcast_S_S3x2x512 main_cst_4
  let main_v16 : IVec S3x2x512 1 := cmpf .olt main_v14 main_v15
  fn_part1 (F := F) main_arg4 main_arg5 main_arg6 main_v13 main_v16
-- ==== Kernel.lean ====
abbrev S32x2048 : Shape := ⟨2, ![32, 2048]⟩
abbrev S2x512x1 : Shape := ⟨3, ![2, 512, 1]⟩
abbrev S2x2x512x256 : Shape := ⟨4, ![2, 2, 512, 256]⟩
abbrev S3x2x512 : Shape := ⟨3, ![3, 2, 512]⟩
abbrev S2x256 : Shape := ⟨2, ![2, 256]⟩
abbrev S2 : Shape := ⟨1, ![2]⟩
abbrev S65536x1 : Shape := ⟨2, ![65536, 1]⟩
abbrev S2x512 : Shape := ⟨2, ![2, 512]⟩
abbrev S2x2x256x512 : Shape := ⟨4, ![2, 2, 256, 512]⟩
abbrev S256x2 : Shape := ⟨2, ![256, 2]⟩
abbrev S1x2 : Shape := ⟨2, ![1, 2]⟩
abbrev S65536x2 : Shape := ⟨2, ![65536, 2]⟩
abbrev S2048x1 : Shape := ⟨2, ![2048, 1]⟩
abbrev S2048x2 : Shape := ⟨2, ![2048, 2]⟩
abbrev S1x512 : Shape := ⟨2, ![1, 512]⟩
abbrev S512 : Shape := ⟨1, ![512]⟩
abbrev S1x1x512 : Shape := ⟨3, ![1, 1, 512]⟩
abbrev S2048x512 : Shape := ⟨2, ![2048, 512]⟩
abbrev S2048x128 : Shape := ⟨2, ![2048, 128]⟩
abbrev S2048x256 : Shape := ⟨2, ![2048, 256]⟩
abbrev S1x1x256x512 : Shape := ⟨4, ![1, 1, 256, 512]⟩
abbrev S256x512 : Shape := ⟨2, ![256, 512]⟩
abbrev S32x2048x2 : Shape := ⟨3, ![32, 2048, 2]⟩

abbrev nBuf : Space → Nat
  | .hbm => 14
  | .vmem => 10
  | .smem => 0
  | _ => 0

abbrev bufTy : (tb : Table) → Fin (tcTables nBuf tb) → BufTy
  | .hbm, ⟨0, _⟩ => ⟨S32x2048, .f32⟩
  | .hbm, ⟨1, _⟩ => ⟨S2x512x1, .f32⟩
  | .hbm, ⟨2, _⟩ => ⟨S2x2x512x256, .f32⟩
  | .hbm, ⟨3, _⟩ => ⟨S3x2x512, .f32⟩
  | .hbm, ⟨4, _⟩ => ⟨S3x2x512, .f32⟩
  | .hbm, ⟨5, _⟩ => ⟨S2x256, .f32⟩
  | .hbm, ⟨6, _⟩ => ⟨S2, .f32⟩
  | .hbm, ⟨7, _⟩ => ⟨S65536x1, .f32⟩
  | .hbm, ⟨8, _⟩ => ⟨S2x512, .f32⟩
  | .hbm, ⟨9, _⟩ => ⟨S2x2x256x512, .f32⟩
  | .hbm, ⟨10, _⟩ => ⟨S256x2, .f32⟩
  | .hbm, ⟨11, _⟩ => ⟨S1x2, .f32⟩
  | .hbm, ⟨12, _⟩ => ⟨S65536x2, .f32⟩
  | .hbm, ⟨13, _⟩ => ⟨S32x2048x2, .f32⟩
  | .local _ .vmem, ⟨0, _⟩ => ⟨S2048x1, .f32⟩
  | .local _ .vmem, ⟨1, _⟩ => ⟨S2048x1, .f32⟩
  | .local _ .vmem, ⟨2, _⟩ => ⟨S2x512, .f32⟩
  | .local _ .vmem, ⟨3, _⟩ => ⟨S2x2x256x512, .f32⟩
  | .local _ .vmem, ⟨4, _⟩ => ⟨S3x2x512, .f32⟩
  | .local _ .vmem, ⟨5, _⟩ => ⟨S3x2x512, .f32⟩
  | .local _ .vmem, ⟨6, _⟩ => ⟨S256x2, .f32⟩
  | .local _ .vmem, ⟨7, _⟩ => ⟨S1x2, .f32⟩
  | .local _ .vmem, ⟨8, _⟩ => ⟨S2048x2, .f32⟩
  | .local _ .vmem, ⟨9, _⟩ => ⟨S2048x2, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x2048_S65536x1 : S32x2048.ShapeCasts S65536x1
  shapeCasts_S2x512x1_S2x512 : S2x512x1.ShapeCasts S2x512
  transposes_S2x2x512x256_S2x2x256x512_0_1_3_2 : S2x2x512x256.Transposes [0, 1, 3, 2] S2x2x256x512
  transposes_S2x256_S256x2_1_0 : S2x256.Transposes [1, 0] S256x2
  shapeCasts_S2_S1x2 : S2.ShapeCasts S1x2
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2x512_S1x512_0_0 : ∀ a, (![0, 0] : Fin 2 → Nat) a + S1x512.size a ≤ S2x512.size a
  h_S1x512 : 0 < S1x512.numel
  shapeCasts_S1x512_S512 : S1x512.ShapeCasts S512
  inb_S2x512_S1x512_1_0 : ∀ a, (![1, 0] : Fin 2 → Nat) a + S1x512.size a ≤ S2x512.size a
  inb_S3x2x512_S1x1x512_0_0_0 : ∀ a, (![0, 0, 0] : Fin 3 → Nat) a + S1x1x512.size a ≤ S3x2x512.size a
  h_S1x1x512 : 0 < S1x1x512.numel
  shapeCasts_S1x1x512_S512 : S1x1x512.ShapeCasts S512
  inb_S3x2x512_S1x1x512_0_1_0 : ∀ a, (![0, 1, 0] : Fin 3 → Nat) a + S1x1x512.size a ≤ S3x2x512.size a
  shapeCasts_S512_S1x512 : S512.ShapeCasts S1x512
  broadcasts_S2048x1_S2048x512 : S2048x1.Broadcasts S2048x512
  broadcasts_S1x512_S2048x512 : S1x512.Broadcasts S2048x512
  slices_S2048x512_o0_0_S2048x128 : S2048x512.Slices ![0, 0] S2048x128
  slices_S2048x512_o0_256_S2048x128 : S2048x512.Slices ![0, 256] S2048x128
  slices_S2048x512_o0_384_S2048x128 : S2048x512.Slices ![0, 384] S2048x128
  concatenates_S2048x128_S2048x128_S2048x256_d1 : Shape.Concatenates [S2048x128, S2048x128] S2048x256 1
  inb_S2x2x256x512_S1x1x256x512_0_0_0_0 : ∀ a, (![0, 0, 0, 0] : Fin 4 → Nat) a + S1x1x256x512.size a ≤ S2x2x256x512.size a
  h_S1x1x256x512 : 0 < S1x1x256x512.numel
  shapeCasts_S1x1x256x512_S256x512 : S1x1x256x512.ShapeCasts S256x512
  bitsLt_bf16_f32 : FTy.bits .bf16 < FTy.bits .f32
  inb_S2x2x256x512_S1x1x256x512_0_1_0_0 : ∀ a, (![0, 1, 0, 0] : Fin 4 → Nat) a + S1x1x256x512.size a ≤ S2x2x256x512.size a
  inb_S3x2x512_S1x1x512_1_0_0 : ∀ a, (![1, 0, 0] : Fin 3 → Nat) a + S1x1x512.size a ≤ S3x2x512.size a
  inb_S3x2x512_S1x1x512_1_1_0 : ∀ a, (![1, 1, 0] : Fin 3 → Nat) a + S1x1x512.size a ≤ S3x2x512.size a
  inb_S2x2x256x512_S1x1x256x512_1_0_0_0 : ∀ a, (![1, 0, 0, 0] : Fin 4 → Nat) a + S1x1x256x512.size a ≤ S2x2x256x512.size a
  inb_S2x2x256x512_S1x1x256x512_1_1_0_0 : ∀ a, (![1, 1, 0, 0] : Fin 4 → Nat) a + S1x1x256x512.size a ≤ S2x2x256x512.size a
  inb_S3x2x512_S1x1x512_2_0_0 : ∀ a, (![2, 0, 0] : Fin 3 → Nat) a + S1x1x512.size a ≤ S3x2x512.size a
  inb_S3x2x512_S1x1x512_2_1_0 : ∀ a, (![2, 1, 0] : Fin 3 → Nat) a + S1x1x512.size a ≤ S3x2x512.size a
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  shapeCasts_S65536x2_S32x2048x2 : S65536x2.ShapeCasts S32x2048x2
  dot_S2048x256_S256x512_S2048x512_1_0_0_1_n_n_wf : DotDims.WF S2048x256 S256x512 S2048x512 [1] [0] [0] [1] [] []
  dot_S2048x256_S256x2_S2048x2_1_0_0_1_n_n_wf : DotDims.WF S2048x256 S256x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S65536x1.size a
  hwx0_0 : ∀ i : grid0.Coords, EltTy.bits .f32 = 32 ∨ (Rect.block (s := S65536x1) S2048x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x512.size a ≤ S2x512.size a
  hwx0_1 : ∀ i : grid0.Coords, EltTy.bits .f32 = 32 ∨ (Rect.block (s := S2x512) S2x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2x256x512.size a ≤ S2x2x256x512.size a
  hwx0_2 : ∀ i : grid0.Coords, EltTy.bits .f32 = 32 ∨ (Rect.block (s := S2x2x256x512) S2x2x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2x512.size a ≤ S3x2x512.size a
  hwx0_3 : ∀ i : grid0.Coords, EltTy.bits .f32 = 32 ∨ (Rect.block (s := S3x2x512) S3x2x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2x512.size a ≤ S3x2x512.size a
  hwx0_4 : ∀ i : grid0.Coords, EltTy.bits .f32 = 32 ∨ (Rect.block (s := S3x2x512) S3x2x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .f32 = 32 ∨ (Rect.block (s := S256x2) S256x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x2.size a ≤ S65536x2.size a
  hwx0_7 : ∀ i : grid0.Coords, EltTy.bits .f32 = 32 ∨ (Rect.block (s := S65536x2) S2048x2.size (cc0_transform_7 i) (hinb0_7 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x2x256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x2x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x2x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x2048 : Shape := ⟨2, ![32, 2048]⟩
abbrev S2x512x1 : Shape := ⟨3, ![2, 512, 1]⟩
abbrev S2x2x512x256 : Shape := ⟨4, ![2, 2, 512, 256]⟩
abbrev S3x2x512 : Shape := ⟨3, ![3, 2, 512]⟩
abbrev S2x256 : Shape := ⟨2, ![2, 256]⟩
abbrev S2 : Shape := ⟨1, ![2]⟩
abbrev S32x2048x1 : Shape := ⟨3, ![32, 2048, 1]⟩
abbrev S1x512x1 : Shape := ⟨3, ![1, 512, 1]⟩
abbrev S512x1 : Shape := ⟨2, ![512, 1]⟩
abbrev S1x1x512 : Shape := ⟨3, ![1, 1, 512]⟩
abbrev S512 : Shape := ⟨1, ![512]⟩
abbrev S32x2048x512 : Shape := ⟨3, ![32, 2048, 512]⟩
abbrev S32x2048x128 : Shape := ⟨3, ![32, 2048, 128]⟩
abbrev S_ : Shape := ⟨0, ![]⟩
abbrev S32x2048x256 : Shape := ⟨3, ![32, 2048, 256]⟩
abbrev S1x2x512x256 : Shape := ⟨4, ![1, 2, 512, 256]⟩
abbrev S2x512x256 : Shape := ⟨3, ![2, 512, 256]⟩
abbrev S1x512x256 : Shape := ⟨3, ![1, 512, 256]⟩
abbrev S512x256 : Shape := ⟨2, ![512, 256]⟩
abbrev S32x2048x2 : Shape := ⟨3, ![32, 2048, 2]⟩
abbrev S1x1x2 : Shape := ⟨3, ![1, 1, 2]⟩

abbrev nBuf : Space → Nat
  | .hbm => 241
  | .vmem => 0
  | .smem => 0
  | _ => 0

abbrev hbmTy0_0 (i : Nat) : BufTy := match i % 128 with
  | 0 => ⟨S32x2048, .f32⟩
  | 1 => ⟨S2x512x1, .f32⟩
  | 2 => ⟨S2x2x512x256, .f32⟩
  | 3 => ⟨S3x2x512, .f32⟩
  | 4 => ⟨S3x2x512, .f32⟩
  | 5 => ⟨S2x256, .f32⟩
  | 6 => ⟨S2, .f32⟩
  | 7 => ⟨S32x2048x1, .f32⟩
  | 8 => ⟨S1x512x1, .f32⟩
  | 9 => ⟨S512x1, .f32⟩
  | 10 => ⟨S1x1x512, .f32⟩
  | 11 => ⟨S512, .f32⟩
  | 12 => ⟨S1x1x512, .f32⟩
  | 13 => ⟨S512, .f32⟩
  | 14 => ⟨S32x2048x512, .f32⟩
  | 15 => ⟨S1x1x512, .f32⟩
  | 16 => ⟨S32x2048x512, .f32⟩
  | 17 => ⟨S32x2048x512, .f32⟩
  | 18 => ⟨S1x1x512, .f32⟩
  | 19 => ⟨S32x2048x512, .f32⟩
  | 20 => ⟨S32x2048x512, .f32⟩
  | 21 => ⟨S32x2048x128, .f32⟩
  | 22 => ⟨S32x2048x128, .f32⟩
  | 23 => ⟨S32x2048x128, .f32⟩
  | 24 => ⟨S32x2048x128, .f32⟩
  | 25 => ⟨S32x2048x128, .f32⟩
  | 26 => ⟨S32x2048x128, .f32⟩
  | 27 => ⟨S_, .f32⟩
  | 28 => ⟨S32x2048x128, .f32⟩
  | 29 => ⟨S32x2048x128, .f32⟩
  | 30 => ⟨S_, .f32⟩
  | 31 => ⟨S32x2048x128, .f32⟩
  | 32 => ⟨S32x2048x128, .f32⟩
  | 33 => ⟨S32x2048x128, .f32⟩
  | 34 => ⟨S32x2048x128, .f32⟩
  | 35 => ⟨S32x2048x128, .f32⟩
  | 36 => ⟨S32x2048x128, .f32⟩
  | 37 => ⟨S_, .f32⟩
  | 38 => ⟨S32x2048x128, .f32⟩
  | 39 => ⟨S32x2048x128, .f32⟩
  | 40 => ⟨S_, .f32⟩
  | 41 => ⟨S32x2048x128, .f32⟩
  | 42 => ⟨S32x2048x128, .f32⟩
  | 43 => ⟨S32x2048x128, .f32⟩
  | 44 => ⟨S32x2048x128, .f32⟩
  | 45 => ⟨S1x512x1, .f32⟩
  | 46 => ⟨S512x1, .f32⟩
  | 47 => ⟨S1x1x512, .f32⟩
  | 48 => ⟨S512, .f32⟩
  | 49 => ⟨S1x1x512, .f32⟩
  | 50 => ⟨S512, .f32⟩
  | 51 => ⟨S32x2048x512, .f32⟩
  | 52 => ⟨S1x1x512, .f32⟩
  | 53 => ⟨S32x2048x512, .f32⟩
  | 54 => ⟨S32x2048x512, .f32⟩
  | 55 => ⟨S1x1x512, .f32⟩
  | 56 => ⟨S32x2048x512, .f32⟩
  | 57 => ⟨S32x2048x512, .f32⟩
  | 58 => ⟨S32x2048x128, .f32⟩
  | 59 => ⟨S32x2048x128, .f32⟩
  | 60 => ⟨S32x2048x128, .f32⟩
  | 61 => ⟨S32x2048x128, .f32⟩
  | 62 => ⟨S32x2048x128, .f32⟩
  | 63 => ⟨S32x2048x128, .f32⟩
  | 64 => ⟨S_, .f32⟩
  | 65 => ⟨S32x2048x128, .f32⟩
  | 66 => ⟨S32x2048x128, .f32⟩
  | 67 => ⟨S_, .f32⟩
  | 68 => ⟨S32x2048x128, .f32⟩
  | 69 => ⟨S32x2048x128, .f32⟩
  | 70 => ⟨S32x2048x128, .f32⟩
  | 71 => ⟨S32x2048x128, .f32⟩
  | 72 => ⟨S32x2048x128, .f32⟩
  | 73 => ⟨S32x2048x128, .f32⟩
  | 74 => ⟨S_, .f32⟩
  | 75 => ⟨S32x2048x128, .f32⟩
  | 76 => ⟨S32x2048x128, .f32⟩
  | 77 => ⟨S_, .f32⟩
  | 78 => ⟨S32x2048x128, .f32⟩
  | 79 => ⟨S32x2048x128, .f32⟩
  | 80 => ⟨S32x2048x128, .f32⟩
  | 81 => ⟨S32x2048x128, .f32⟩
  | 82 => ⟨S32x2048x256, .f32⟩
  | 83 => ⟨S1x2x512x256, .f32⟩
  | 84 => ⟨S2x512x256, .f32⟩
  | 85 => ⟨S1x512x256, .f32⟩
  | 86 => ⟨S512x256, .f32⟩
  | 87 => ⟨S1x1x512, .f32⟩
  | 88 => ⟨S512, .f32⟩
  | 89 => ⟨S1x1x512, .f32⟩
  | 90 => ⟨S512, .f32⟩
  | 91 => ⟨S32x2048x512, .f32⟩
  | 92 => ⟨S1x1x512, .f32⟩
  | 93 => ⟨S32x2048x512, .f32⟩
  | 94 => ⟨S32x2048x512, .f32⟩
  | 95 => ⟨S1x1x512, .f32⟩
  | 96 => ⟨S32x2048x512, .f32⟩
  | 97 => ⟨S32x2048x512, .f32⟩
  | 98 => ⟨S32x2048x128, .f32⟩
  | 99 => ⟨S32x2048x128, .f32⟩
  | 100 => ⟨S32x2048x128, .f32⟩
  | 101 => ⟨S32x2048x128, .f32⟩
  | 102 => ⟨S32x2048x128, .f32⟩
  | 103 => ⟨S32x2048x128, .f32⟩
  | 104 => ⟨S_, .f32⟩
  | 105 => ⟨S32x2048x128, .f32⟩
  | 106 => ⟨S32x2048x128, .f32⟩
  | 107 => ⟨S_, .f32⟩
  | 108 => ⟨S32x2048x128, .f32⟩
  | 109 => ⟨S32x2048x128, .f32⟩
  | 110 => ⟨S32x2048x128, .f32⟩
  | 111 => ⟨S32x2048x128, .f32⟩
  | 112 => ⟨S32x2048x128, .f32⟩
  | 113 => ⟨S32x2048x128, .f32⟩
  | 114 => ⟨S_, .f32⟩
  | 115 => ⟨S32x2048x128, .f32⟩
  | 116 => ⟨S32x2048x128, .f32⟩
  | 117 => ⟨S_, .f32⟩
  | 118 => ⟨S32x2048x128, .f32⟩
  | 119 => ⟨S32x2048x128, .f32⟩
  | 120 => ⟨S32x2048x128, .f32⟩
  | 121 => ⟨S32x2048x128, .f32⟩
  | 122 => ⟨S1x512x256, .f32⟩
  | 123 => ⟨S512x256, .f32⟩
  | 124 => ⟨S1x1x512, .f32⟩
  | 125 => ⟨S512, .f32⟩
  | 126 => ⟨S1x1x512, .f32⟩
  | 127 => ⟨S512, .f32⟩
  | _ => ⟨S32x2048, .f32⟩

abbrev hbmTy0_1 (i : Nat) : BufTy := match i % 128 with
  | 0 => ⟨S32x2048x512, .f32⟩
  | 1 => ⟨S1x1x512, .f32⟩
  | 2 => ⟨S32x2048x512, .f32⟩
  | 3 => ⟨S32x2048x512, .f32⟩
  | 4 => ⟨S1x1x512, .f32⟩
  | 5 => ⟨S32x2048x512, .f32⟩
  | 6 => ⟨S32x2048x512, .f32⟩
  | 7 => ⟨S32x2048x128, .f32⟩
  | 8 => ⟨S32x2048x128, .f32⟩
  | 9 => ⟨S32x2048x128, .f32⟩
  | 10 => ⟨S32x2048x128, .f32⟩
  | 11 => ⟨S32x2048x128, .f32⟩
  | 12 => ⟨S32x2048x128, .f32⟩
  | 13 => ⟨S_, .f32⟩
  | 14 => ⟨S32x2048x128, .f32⟩
  | 15 => ⟨S32x2048x128, .f32⟩
  | 16 => ⟨S_, .f32⟩
  | 17 => ⟨S32x2048x128, .f32⟩
  | 18 => ⟨S32x2048x128, .f32⟩
  | 19 => ⟨S32x2048x128, .f32⟩
  | 20 => ⟨S32x2048x128, .f32⟩
  | 21 => ⟨S32x2048x128, .f32⟩
  | 22 => ⟨S32x2048x128, .f32⟩
  | 23 => ⟨S_, .f32⟩
  | 24 => ⟨S32x2048x128, .f32⟩
  | 25 => ⟨S32x2048x128, .f32⟩
  | 26 => ⟨S_, .f32⟩
  | 27 => ⟨S32x2048x128, .f32⟩
  | 28 => ⟨S32x2048x128, .f32⟩
  | 29 => ⟨S32x2048x128, .f32⟩
  | 30 => ⟨S32x2048x128, .f32⟩
  | 31 => ⟨S32x2048x256, .f32⟩
  | 32 => ⟨S1x2x512x256, .f32⟩
  | 33 => ⟨S2x512x256, .f32⟩
  | 34 => ⟨S1x512x256, .f32⟩
  | 35 => ⟨S512x256, .f32⟩
  | 36 => ⟨S1x1x512, .f32⟩
  | 37 => ⟨S512, .f32⟩
  | 38 => ⟨S1x1x512, .f32⟩
  | 39 => ⟨S512, .f32⟩
  | 40 => ⟨S32x2048x512, .f32⟩
  | 41 => ⟨S1x1x512, .f32⟩
  | 42 => ⟨S32x2048x512, .f32⟩
  | 43 => ⟨S32x2048x512, .f32⟩
  | 44 => ⟨S1x1x512, .f32⟩
  | 45 => ⟨S32x2048x512, .f32⟩
  | 46 => ⟨S32x2048x512, .f32⟩
  | 47 => ⟨S32x2048x128, .f32⟩
  | 48 => ⟨S32x2048x128, .f32⟩
  | 49 => ⟨S32x2048x128, .f32⟩
  | 50 => ⟨S32x2048x128, .f32⟩
  | 51 => ⟨S32x2048x128, .f32⟩
  | 52 => ⟨S32x2048x128, .f32⟩
  | 53 => ⟨S_, .f32⟩
  | 54 => ⟨S32x2048x128, .f32⟩
  | 55 => ⟨S32x2048x128, .f32⟩
  | 56 => ⟨S_, .f32⟩
  | 57 => ⟨S32x2048x128, .f32⟩
  | 58 => ⟨S32x2048x128, .f32⟩
  | 59 => ⟨S32x2048x128, .f32⟩
  | 60 => ⟨S32x2048x128, .f32⟩
  | 61 => ⟨S32x2048x128, .f32⟩
  | 62 => ⟨S32x2048x128, .f32⟩
  | 63 => ⟨S_, .f32⟩
  | 64 => ⟨S32x2048x128, .f32⟩
  | 65 => ⟨S32x2048x128, .f32⟩
  | 66 => ⟨S_, .f32⟩
  | 67 => ⟨S32x2048x128, .f32⟩
  | 68 => ⟨S32x2048x128, .f32⟩
  | 69 => ⟨S32x2048x128, .f32⟩
  | 70 => ⟨S32x2048x128, .f32⟩
  | 71 => ⟨S1x512x256, .f32⟩
  | 72 => ⟨S512x256, .f32⟩
  | 73 => ⟨S1x1x512, .f32⟩
  | 74 => ⟨S512, .f32⟩
  | 75 => ⟨S1x1x512, .f32⟩
  | 76 => ⟨S512, .f32⟩
  | 77 => ⟨S32x2048x512, .f32⟩
  | 78 => ⟨S1x1x512, .f32⟩
  | 79 => ⟨S32x2048x512, .f32⟩
  | 80 => ⟨S32x2048x512, .f32⟩
  | 81 => ⟨S1x1x512, .f32⟩
  | 82 => ⟨S32x2048x512, .f32⟩
  | 83 => ⟨S32x2048x512, .f32⟩
  | 84 => ⟨S32x2048x128, .f32⟩
  | 85 => ⟨S32x2048x128, .f32⟩
  | 86 => ⟨S32x2048x128, .f32⟩
  | 87 => ⟨S32x2048x128, .f32⟩
  | 88 => ⟨S32x2048x128, .f32⟩
  | 89 => ⟨S32x2048x128, .f32⟩
  | 90 => ⟨S_, .f32⟩
  | 91 => ⟨S32x2048x128, .f32⟩
  | 92 => ⟨S32x2048x128, .f32⟩
  | 93 => ⟨S_, .f32⟩
  | 94 => ⟨S32x2048x128, .f32⟩
  | 95 => ⟨S32x2048x128, .f32⟩
  | 96 => ⟨S32x2048x128, .f32⟩
  | 97 => ⟨S32x2048x128, .f32⟩
  | 98 => ⟨S32x2048x128, .f32⟩
  | 99 => ⟨S32x2048x128, .f32⟩
  | 100 => ⟨S_, .f32⟩
  | 101 => ⟨S32x2048x128, .f32⟩
  | 102 => ⟨S32x2048x128, .f32⟩
  | 103 => ⟨S_, .f32⟩
  | 104 => ⟨S32x2048x128, .f32⟩
  | 105 => ⟨S32x2048x128, .f32⟩
  | 106 => ⟨S32x2048x128, .f32⟩
  | 107 => ⟨S32x2048x128, .f32⟩
  | 108 => ⟨S32x2048x256, .f32⟩
  | 109 => ⟨S32x2048x2, .f32⟩
  | 110 => ⟨S1x1x2, .f32⟩
  | 111 => ⟨S32x2048x2, .f32⟩
  | 112 => ⟨S32x2048x2, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_v54 : Ref sig .tc := ⟨.hbm, 66, rfl⟩
abbrev main_cst_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_5 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_7 : Ref sig .tc := ⟨.hbm, 104, rfl⟩
abbrev main_v89 : Ref sig .tc := ⟨.hbm, 105, rfl⟩
abbrev main_v90 : Ref sig .tc := ⟨.hbm, 106, rfl⟩
abbrev main_cst_8 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_9 : Ref sig .tc := ⟨.hbm, 114, rfl⟩
abbrev main_v97 : Ref sig .tc := ⟨.hbm, 115, rfl⟩
abbrev main_v98 : Ref sig .tc := ⟨.hbm, 116, rfl⟩
abbrev main_cst_10 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_11 : Ref sig .tc := ⟨.hbm, 141, rfl⟩
abbrev main_v122 : Ref sig .tc := ⟨.hbm, 142, rfl⟩
abbrev main_v123 : Ref sig .tc := ⟨.hbm, 143, rfl⟩
abbrev main_cst_12 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_cst_13 : Ref sig .tc := ⟨.hbm, 151, rfl⟩
abbrev main_v130 : Ref sig .tc := ⟨.hbm, 152, rfl⟩
abbrev main_v131 : Ref sig .tc := ⟨.hbm, 153, rfl⟩
abbrev main_cst_14 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_cst_15 : Ref sig .tc := ⟨.hbm, 181, rfl⟩
abbrev main_v158 : Ref sig .tc := ⟨.hbm, 182, rfl⟩
abbrev main_v159 : Ref sig .tc := ⟨.hbm, 183, rfl⟩
abbrev main_cst_16 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_cst_17 : Ref sig .tc := ⟨.hbm, 191, rfl⟩
abbrev main_v166 : Ref sig .tc := ⟨.hbm, 192, rfl⟩
abbrev main_v167 : Ref sig .tc := ⟨.hbm, 193, rfl⟩
abbrev main_cst_18 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_cst_19 : Ref sig .tc := ⟨.hbm, 218, rfl⟩
abbrev main_v191 : Ref sig .tc := ⟨.hbm, 219, rfl⟩
abbrev main_v192 : Ref sig .tc := ⟨.hbm, 220, rfl⟩
abbrev main_cst_20 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_cst_21 : Ref sig .tc := ⟨.hbm, 228, rfl⟩
abbrev main_v199 : Ref sig .tc := ⟨.hbm, 229, rfl⟩
abbrev main_v200 : Ref sig .tc := ⟨.hbm, 230, rfl⟩
abbrev main_cst_22 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩

abbrev nD : Nat := 1
abbrev τ : Topo := Topo.v7x

variable {F : FTy → Type} [FloatOps F]

class Facts₀ : Prop where
  bcast_S32x2048_S32x2048x1_0_1 : S32x2048.BroadcastsInDim S32x2048x1 (![0, 1] : Fin 2 → Fin S32x2048x1.rank)
  slices_S2x512x1_S1x512x1_0_0_0 : S2x512x1.Slices ![0, 0, 0] S1x512x1
  shapeCasts_S1x512x1_S512x1 : S1x512x1.ShapeCasts S512x1
  slices_S3x2x512_S1x1x512_0_0_0 : S3x2x512.Slices ![0, 0, 0] S1x1x512
  shapeCasts_S1x1x512_S512 : S1x1x512.ShapeCasts S512
  bcast_S512_S1x1x512_2 : S512.BroadcastsInDim S1x1x512 (![2] : Fin 1 → Fin S1x1x512.rank)
  bcast_S1x1x512_S32x2048x512_0_1_2 : S1x1x512.BroadcastsInDim S32x2048x512 (![0, 1, 2] : Fin 3 → Fin S32x2048x512.rank)
  slices_S32x2048x512_S32x2048x128_0_0_0 : S32x2048x512.Slices ![0, 0, 0] S32x2048x128
  slices_S32x2048x512_S32x2048x128_0_0_128 : S32x2048x512.Slices ![0, 0, 128] S32x2048x128
  slices_S32x2048x512_S32x2048x128_0_0_256 : S32x2048x512.Slices ![0, 0, 256] S32x2048x128
  slices_S32x2048x512_S32x2048x128_0_0_384 : S32x2048x512.Slices ![0, 0, 384] S32x2048x128
  bcast_S_S32x2048x128 : S_.BroadcastsInDim S32x2048x128 (![] : Fin 0 → Fin S32x2048x128.rank)
  slices_S2x512x1_S1x512x1_1_0_0 : S2x512x1.Slices ![1, 0, 0] S1x512x1
  slices_S3x2x512_S1x1x512_0_1_0 : S3x2x512.Slices ![0, 1, 0] S1x1x512
  concatenates_S32x2048x128_S32x2048x128_S32x2048x256_d2 : Shape.Concatenates [S32x2048x128, S32x2048x128] S32x2048x256 2
  slices_S2x2x512x256_S1x2x512x256_0_0_0_0 : S2x2x512x256.Slices ![0, 0, 0, 0] S1x2x512x256
  shapeCasts_S1x2x512x256_S2x512x256 : S1x2x512x256.ShapeCasts S2x512x256
  slices_S2x512x256_S1x512x256_0_0_0 : S2x512x256.Slices ![0, 0, 0] S1x512x256
  shapeCasts_S1x512x256_S512x256 : S1x512x256.ShapeCasts S512x256
  slices_S3x2x512_S1x1x512_1_0_0 : S3x2x512.Slices ![1, 0, 0] S1x1x512
  slices_S2x512x256_S1x512x256_1_0_0 : S2x512x256.Slices ![1, 0, 0] S1x512x256
  slices_S3x2x512_S1x1x512_1_1_0 : S3x2x512.Slices ![1, 1, 0] S1x1x512
  slices_S2x2x512x256_S1x2x512x256_1_0_0_0 : S2x2x512x256.Slices ![1, 0, 0, 0] S1x2x512x256
  slices_S3x2x512_S1x1x512_2_0_0 : S3x2x512.Slices ![2, 0, 0] S1x1x512
  slices_S3x2x512_S1x1x512_2_1_0 : S3x2x512.Slices ![2, 1, 0] S1x1x512
  bcast_S2_S1x1x2_2 : S2.BroadcastsInDim S1x1x2 (![2] : Fin 1 → Fin S1x1x2.rank)
  bcast_S1x1x2_S32x2048x2_0_1_2 : S1x1x2.BroadcastsInDim S32x2048x2 (![0, 1, 2] : Fin 3 → Fin S32x2048x2.rank)
  dot_S32x2048x1_S512x1_S32x2048x512_2_1_01_0_n_n_wf : DotDims.WF S32x2048x1 S512x1 S32x2048x512 [2] [1] [0, 1] [0] [] []
  dot_S32x2048x256_S512x256_S32x2048x512_2_1_01_0_n_n_wf : DotDims.WF S32x2048x256 S512x256 S32x2048x512 [2] [1] [0, 1] [0] [] []
  dot_S32x2048x256_S2x256_S32x2048x2_2_1_01_0_n_n_wf : DotDims.WF S32x2048x256 S2x256 S32x2048x2 [2] [1] [0, 1] [0] [] []

variable [Facts₀]

def dot_S32x2048x1_S512x1_S32x2048x512_2_1_01_0_n_n : DotDims S32x2048x1 S512x1 S32x2048x512 where
  lhsContracting := [2]
  rhsContracting := [1]
  lhsNonContracting := [0, 1]
  rhsNonContracting := [0]
  lhsBatch := []
  rhsBatch := []
  wf := dot_S32x2048x1_S512x1_S32x2048x512_2_1_01_0_n_n_wf
def dot_S32x2048x256_S512x256_S32x2048x512_2_1_01_0_n_n : DotDims S32x2048x256 S512x256 S32x2048x512 where
  lhsContracting := [2]
  rhsContracting := [1]
  lhsNonContracting := [0, 1]
  rhsNonContracting := [0]
  lhsBatch := []
  rhsBatch := []
  wf := dot_S32x2048x256_S512x256_S32x2048x512_2_1_01_0_n_n_wf
def dot_S32x2048x256_S2x256_S32x2048x2_2_1_01_0_n_n : DotDims S32x2048x256 S2x256 S32x2048x2 where
  lhsContracting := [2]
  rhsContracting := [1]
  lhsNonContracting := [0, 1]
  rhsNonContracting := [0]
  lhsBatch := []
  rhsBatch := []
  wf := dot_S32x2048x256_S2x256_S32x2048x2_2_1_01_0_n_n_wf

class Facts : Prop extends Facts₀ where

variable [Facts]
-- ==== Proof.LstmSpec.lean ====
/-
  One time step of a three-layer bidirectional LSTM started from zero hidden and cell state, followed by a linear
  head, for ONE input scalar.

  With zero initial state the recurrent product and the forget gate drop out, so a cell is a function of its gate
  pre-activations alone: of the 512 gates, in the order input, forget, candidate, output (128 lanes each), lane `j` of
  the hidden state is `σ(o_j) · tanh (σ(i_j) · tanh (g_j))`.  Layer 0 has a scalar input, so its gates are
  `x · w_n + b_n + b'_n`; layers 1 and 2 read the 256 hidden lanes of the layer below (forward half, then backward
  half) through a 512 × 256 matrix.  The head is a 2 × 256 matrix and a bias.  Everything is over the extended reals,
  where `+` is associative and commutative, which is all the algebra used.
-/
import Idealize.ShloMosaic.PureOps.Ideal
import Idealize.ShloMosaic.Lib.ValueIdx

noncomputable section

namespace Cert.Lstm

open Idealize.ShloMosaic

/-- Lane `j` of the 128-wide gate group that starts at `o`. -/
def lane (o : ℕ) (ho : o + 128 ≤ 512) (j : Fin 128) : Fin 512 := ⟨o + j.val, by have := j.isLt; omega⟩

/-- The hidden state of one cell from zero state, lane `j`, from its 512 gate pre-activations. -/
def cell (g : Fin 512 → EReal) (j : Fin 128) : EReal :=
  Ideal.logistic (g (lane 384 (by norm_num) j))
    * Ideal.tanh (Ideal.logistic (g (lane 0 (by norm_num) j)) * Ideal.tanh (g (lane 256 (by norm_num) j)))

/-- Two 128-lane halves side by side. -/
def join (a b : Fin 128 → EReal) (k : Fin 256) : EReal :=
  if h : k.val < 128 then a ⟨k.val, h⟩ else b ⟨k.val - 128, by have := k.isLt; omega⟩

/-- The 256 hidden lanes of a bidirectional layer: the forward cell's, then the backward cell's. -/
def hidden (gf gb : Fin 512 → EReal) : Fin 256 → EReal := join (cell gf) (cell gb)

/-- Layer 0's gates: the scalar input times a weight column, plus the two biases (added one after the other). -/
def gates0 (x : EReal) (w bi bh : Fin 512 → EReal) (n : Fin 512) : EReal := x * w n + bi n + bh n

/-- The same with the two biases added to each other first. -/
def gates0' (x : EReal) (w bi bh : Fin 512 → EReal) (n : Fin 512) : EReal := x * w n + (bi n + bh n)

theorem gates0'_eq (x : EReal) (w bi bh : Fin 512 → EReal) : gates0' x w bi bh = gates0 x w bi bh :=
  funext fun _ => (add_assoc _ _ _).symm

/-- A deeper layer's gates: row `n` of the weight matrix against the hidden lanes, plus the two biases. -/
def gates (h : Fin 256 → EReal) (w : Fin 512 → Fin 256 → EReal) (bi bh : Fin 512 → EReal) (n : Fin 512) : EReal :=
  (∑ k : Fin 256, h k * w n k) + bi n + bh n

/-- The head: row `c` of its matrix against the hidden lanes, plus its bias. -/
def head (h : Fin 256 → EReal) (w : Fin 2 → Fin 256 → EReal) (b : Fin 2 → EReal) (c : Fin 2) : EReal :=
  (∑ k : Fin 256, h k * w c k) + b c

/-- Layer 0's hidden lanes from the input scalar. -/
def hidden0 (x : EReal) (w bi bh : Fin 2 → Fin 512 → EReal) : Fin 256 → EReal :=
  hidden (gates0 x (w 0) (bi 0) (bh 0)) (gates0 x (w 1) (bi 1) (bh 1))

/-- A deeper layer's hidden lanes from those of the layer below. -/
def hiddenN (h : Fin 256 → EReal) (w : Fin 2 → Fin 512 → Fin 256 → EReal) (bi bh : Fin 2 → Fin 512 → EReal) : Fin 256 → EReal :=
  hidden (gates h (w 0) (bi 0) (bh 0)) (gates h (w 1) (bi 1) (bh 1))

/-- The whole network at one input scalar: class `c` of the head over layer 2 over layer 1 over layer 0.
    `w0 d n`, `W l d n k`, `bi l d n`, `bh l d n` are the weights of direction `d` (0 forward, 1 backward). -/
def row (x : EReal) (w0 : Fin 2 → Fin 512 → EReal) (W : Fin 2 → Fin 2 → Fin 512 → Fin 256 → EReal)
    (bi bh : Fin 3 → Fin 2 → Fin 512 → EReal) (wfc : Fin 2 → Fin 256 → EReal) (bfc : Fin 2 → EReal) (c : Fin 2) : EReal :=
  head (hiddenN (hiddenN (hidden0 x w0 (bi 0) (bh 0)) (W 0) (bi 1) (bh 1)) (W 1) (bi 2) (bh 2)) wfc bfc c

open Idealize.ShloMosaic.ValueIdx in
/-- The network's result at batch entry `b`, time step `t` and class `c`, from the seven argument arrays: the input
    `[32, 2048]`, layer 0's weights `[2, 512, 1]`, the deeper layers' `[2, 2, 512, 256]`, the two bias arrays
    `[3, 2, 512]`, the head's matrix `[2, 256]` and bias `[2]`. -/
def rowOf (a0 : (⟨2, ![32, 2048]⟩ : Shape).Idx → EReal) (a1 : (⟨3, ![2, 512, 1]⟩ : Shape).Idx → EReal)
    (a2 : (⟨4, ![2, 2, 512, 256]⟩ : Shape).Idx → EReal) (a3 a4 : (⟨3, ![3, 2, 512]⟩ : Shape).Idx → EReal)
    (a5 : (⟨2, ![2, 256]⟩ : Shape).Idx → EReal) (a6 : (⟨1, ![2]⟩ : Shape).Idx → EReal)
    (b : Fin 32) (t : Fin 2048) (c : Fin 2) : EReal :=
  row (a0 (ix2 b t)) (fun d n => a1 (ix3 d n (0 : Fin 1))) (fun l d n k => a2 (ix4 l d n k)) (fun l d n => a3 (ix3 l d n))
    (fun l d n => a4 (ix3 l d n)) (fun c k => a5 (ix2 c k)) (fun c => a6 (ix1 c)) c

/-- The whole `[32, 2048, 2]` result. -/
def result (a0 : (⟨2, ![32, 2048]⟩ : Shape).Idx → EReal) (a1 : (⟨3, ![2, 512, 1]⟩ : Shape).Idx → EReal)
    (a2 : (⟨4, ![2, 2, 512, 256]⟩ : Shape).Idx → EReal) (a3 a4 : (⟨3, ![3, 2, 512]⟩ : Shape).Idx → EReal)
    (a5 : (⟨2, ![2, 256]⟩ : Shape).Idx → EReal) (a6 : (⟨1, ![2]⟩ : Shape).Idx → EReal) :
    (⟨3, ![32, 2048, 2]⟩ : Shape).Idx → EReal :=
  fun i => rowOf a0 a1 a2 a3 a4 a5 a6 (i 0) (i 1) (i 2)

end Cert.Lstm

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibUnitAxes.lean ====
/-
  A matrix carried with two leading axes of extent one, and a matrix transposed, read at an index.

  An `[1, 1, a, b]` array re-laid as `[a, b]` has at `(p, c)` the entry `(0, 0, p, c)`, and the other way round; the
  row-major position of `(0, 0, p, c)` among `1 · 1 · a · b` entries is that of `(p, c)` among `a · b`.
  The transpose of an `[a, b]` matrix has at `(p, c)` the entry `(c, p)`.
-/
import Idealize.ShloMosaic.Lib.Pipeline.Value
import Idealize.ShloMosaic.Lib.ValueIdx

noncomputable section

namespace Cert.Layout

open Idealize.ShloMosaic Idealize.ShloMosaic.ValueIdx

variable {α : Type}

/-- Dropping two leading unit axes: entry `(p, c)` of the matrix is entry `(0, 0, p, c)` of the operand. -/
theorem shapeCast_11ab_ab_apply {a b : ℕ} (v : (⟨4, ![1, 1, a, b]⟩ : Shape).Idx → α)
    (h : (⟨4, ![1, 1, a, b]⟩ : Shape).ShapeCasts ⟨2, ![a, b]⟩) (p : Fin a) (c : Fin b) :
    shapeCast (⟨2, ![a, b]⟩ : Shape) v h (ix2 p c) = v (ix4 (0 : Fin 1) (0 : Fin 1) p c) := by
  refine shapeCast_apply v h (ix2 p c) (ix4 (0 : Fin 1) (0 : Fin 1) p c) ?_
  rw [Shape.rowMajor_val_four, Shape.rowMajor_val_two]
  show ((0 * 1 + 0) * a + p.val) * b + c.val = p.val * b + c.val
  simp

/-- Adding two leading unit axes: entry `(0, 0, p, c)` of the result is entry `(p, c)` of the matrix. -/
theorem shapeCast_ab_11ab_apply {a b : ℕ} (v : (⟨2, ![a, b]⟩ : Shape).Idx → α)
    (h : (⟨2, ![a, b]⟩ : Shape).ShapeCasts ⟨4, ![1, 1, a, b]⟩) (p : Fin a) (c : Fin b) :
    shapeCast (⟨4, ![1, 1, a, b]⟩ : Shape) v h (ix4 (0 : Fin 1) (0 : Fin 1) p c) = v (ix2 p c) := by
  refine shapeCast_apply v h (ix4 (0 : Fin 1) (0 : Fin 1) p c) (ix2 p c) ?_
  rw [Shape.rowMajor_val_four, Shape.rowMajor_val_two]
  show p.val * b + c.val = ((0 * 1 + 0) * a + p.val) * b + c.val
  simp

/-- The transpose of a matrix: entry `(p, c)` is entry `(c, p)` of the operand. -/
theorem transpose_ab_apply {a b : ℕ} (v : (⟨2, ![a, b]⟩ : Shape).Idx → α)
    (h : (⟨2, ![a, b]⟩ : Shape).Transposes [1, 0] ⟨2, ![b, a]⟩) (p : Fin b) (c : Fin a) :
    transpose (⟨2, ![b, a]⟩ : Shape) [1, 0] v h (ix2 p c) = v (ix2 c p) := by
  refine transpose_apply [1, 0] v h (ix2 p c) (ix2 c p) fun ax => ?_
  match ax with
  | ⟨0, _⟩ => rfl
  | ⟨1, _⟩ => rfl

end Cert.Layout

end
-- ==== Proof.LibRankThree.lean ====
/-
  Rank-3 arrays `[a, b, n]` — a batch of `a · b` rows of length `n` — under the host's layout operations and its
  product, each read at an index written by coordinates.

  * A cut along the last axis from `o`: entry `(p, q, j)` is the operand's `(p, q, o + j)`.
  * One slab picked on the leading axis (or the two leading axes) by a cut of extent one, and the unit axes then
    dropped: a sub-array is read where it sits in the whole.
  * A vector placed on the last axis and repeated over the two leading ones; a scalar repeated everywhere; a matrix
    given a trailing unit axis.
  * Two arrays joined along the last axis: entry `(p, q, k)` is the first's `(p, q, k)` below its width and the
    second's `(p, q, k - width)` from there on; the same for matrices joined along their columns.
  * The product of `[a, b, k]` with `[n, k]` contracting the last axis of both: entry `(p, q, j)` is the sum over `c`
    of `A (p, q, c) · B (j, c)` at the ideal values, where a product is an exact sum.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RankThree

open Idealize.ShloMosaic Idealize.ShloMosaic.ValueIdx

variable {α : Type}

/-! ## Cuts -/

/-- A rank-3 array cut along its last axis from `o` reads, at `(p, q, j)`, the source at `(p, q, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (k : Fin n2) (hk : k.val = o + j.val) :
    extractStridedSlice ⟨3, ![n0, n1, m]⟩ ![0, 0, o] X h (ix3 p q j) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Slab `l` of the leading axis, kept as an array with a leading unit axis. -/
theorem slice3_pick0_apply {n0 n1 n2 : ℕ} (l : ℕ) (X : (⟨3, ![n0, n1, n2]⟩ : Shape).Idx → α)
    (h : (⟨3, ![n0, n1, n2]⟩ : Shape).Slices ![l, 0, 0] ⟨3, ![1, n1, n2]⟩)
    (z : Fin 1) (q : Fin n1) (j : Fin n2) (p : Fin n0) (hp : p.val = l) :
    extractStridedSlice ⟨3, ![1, n1, n2]⟩ ![l, 0, 0] X h (ix3 z q j) = X (ix3 p q j) :=
  extractStridedSlice_apply _ _ _ _ _ (fun ax => by
    match ax with
    | ⟨0, _⟩ => show p.val = l + z.val; have := z.isLt; omega
    | ⟨1, _⟩ => exact (Nat.zero_add _).symm
    | ⟨2, _⟩ => exact (Nat.zero_add _).symm)

/-- Row `(l, d)` of the two leading axes, kept as an array with two leading unit axes. -/
theorem slice3_pick01_apply {n0 n1 n2 : ℕ} (l d : ℕ) (X : (⟨3, ![n0, n1, n2]⟩ : Shape).Idx → α)
    (h : (⟨3, ![n0, n1, n2]⟩ : Shape).Slices ![l, d, 0] ⟨3, ![1, 1, n2]⟩)
    (z z' : Fin 1) (j : Fin n2) (p : Fin n0) (q : Fin n1) (hp : p.val = l) (hq : q.val = d) :
    extractStridedSlice ⟨3, ![1, 1, n2]⟩ ![l, d, 0] X h (ix3 z z' j) = X (ix3 p q j) :=
  extractStridedSlice_apply _ _ _ _ _ (fun ax => by
    match ax with
    | ⟨0, _⟩ => show p.val = l + z.val; have := z.isLt; omega
    | ⟨1, _⟩ => show q.val = d + z'.val; have := z'.isLt; omega
    | ⟨2, _⟩ => exact (Nat.zero_add _).symm)

/-- Slab `l` of the leading axis of a rank-4 array, kept with a leading unit axis. -/
theorem slice4_pick0_apply {n0 n1 n2 n3 : ℕ} (l : ℕ) (X : (⟨4, ![n0, n1, n2, n3]⟩ : Shape).Idx → α)
    (h : (⟨4, ![n0, n1, n2, n3]⟩ : Shape).Slices ![l, 0, 0, 0] ⟨4, ![1, n1, n2, n3]⟩)
    (z : Fin 1) (q : Fin n1) (j : Fin n2) (e : Fin n3) (p : Fin n0) (hp : p.val = l) :
    extractStridedSlice ⟨4, ![1, n1, n2, n3]⟩ ![l, 0, 0, 0] X h (ix4 z q j e) = X (ix4 p q j e) :=
  extractStridedSlice_apply _ _ _ _ _ (fun ax => by
    match ax with
    | ⟨0, _⟩ => show p.val = l + z.val; have := z.isLt; omega
    | ⟨1, _⟩ => exact (Nat.zero_add _).symm
    | ⟨2, _⟩ => exact (Nat.zero_add _).symm
    | ⟨3, _⟩ => exact (Nat.zero_add _).symm)

/-! ## Unit axes dropped -/

/-- `[1, 1, n]` re-laid as a vector: entry `j` is entry `(0, 0, j)`. -/
theorem shapeCast_11n_n_apply {n : ℕ} (v : (⟨3, ![1, 1, n]⟩ : Shape).Idx → α)
    (h : (⟨3, ![1, 1, n]⟩ : Shape).ShapeCasts ⟨1, ![n]⟩) (j : Fin n) :
    shapeCast (⟨1, ![n]⟩ : Shape) v h (ix1 j) = v (ix3 (0 : Fin 1) (0 : Fin 1) j) := by
  refine shapeCast_apply v h (ix1 j) (ix3 (0 : Fin 1) (0 : Fin 1) j) ?_
  rw [Shape.rowMajor_val_three, Shape.rowMajor_val_one]
  show (0 * 1 + 0) * n + j.val = j.val
  simp

/-! ## Repetitions -/

/-- A vector placed on the last of three axes, the other two of extent one. -/
theorem broadcastInDim_n_11n_apply {n : ℕ} (v : (⟨1, ![n]⟩ : Shape).Idx → α)
    (h : (⟨1, ![n]⟩ : Shape).BroadcastsInDim ⟨3, ![1, 1, n]⟩ ![2]) (z z' : Fin 1) (j : Fin n) :
    broadcastInDim ⟨3, ![1, 1, n]⟩ ![2] h v (ix3 z z' j) = v (ix1 j) := by
  refine broadcastInDim_apply _ h v (ix3 z z' j) (ix1 j) fun ax => ?_
  match ax with
  | ⟨0, _⟩ =>
    show j.val = if n = 1 then 0 else j.val
    split
    · have := j.isLt; omega
    · rfl

/-- A `[1, 1, n]` array repeated over the two leading axes. -/
theorem broadcastInDim_11n_abn_apply {a b n : ℕ} (v : (⟨3, ![1, 1, n]⟩ : Shape).Idx → α)
    (h : (⟨3, ![1, 1, n]⟩ : Shape).BroadcastsInDim ⟨3, ![a, b, n]⟩ ![0, 1, 2]) (p : Fin a) (q : Fin b) (j : Fin n) :
    broadcastInDim ⟨3, ![a, b, n]⟩ ![0, 1, 2] h v (ix3 p q j) = v (ix3 (0 : Fin 1) (0 : Fin 1) j) := by
  refine broadcastInDim_apply _ h v (ix3 p q j) (ix3 (0 : Fin 1) (0 : Fin 1) j) fun ax => ?_
  match ax with
  | ⟨0, _⟩ => rfl
  | ⟨1, _⟩ => rfl
  | ⟨2, _⟩ =>
    show j.val = if n = 1 then 0 else j.val
    split
    · have := j.isLt; omega
    · rfl

/-- A scalar repeated over a whole array. -/
theorem broadcastInDim_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 fun ax => ax.elim0

/-- A matrix given a trailing unit axis. -/
theorem broadcastInDim_ab_ab1_apply {a b : ℕ} (v : (⟨2, ![a, b]⟩ : Shape).Idx → α)
    (h : (⟨2, ![a, b]⟩ : Shape).BroadcastsInDim ⟨3, ![a, b, 1]⟩ ![0, 1]) (p : Fin a) (q : Fin b) (z : Fin 1) :
    broadcastInDim ⟨3, ![a, b, 1]⟩ ![0, 1] h v (ix3 p q z) = v (ix2 p q) := by
  refine broadcastInDim_apply _ h v (ix3 p q z) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-! ## Two pieces side by side -/

/-- Two rank-3 arrays joined along the last axis, read at `(p, q, k)`. -/
theorem concatenate3_axis2_apply {a b n₁ n₂ n : ℕ} (x₁ : (⟨3, ![a, b, n₁]⟩ : Shape).Idx → α) (x₂ : (⟨3, ![a, b, n₂]⟩ : Shape).Idx → α)
    (h : Shape.Concatenates [⟨3, ![a, b, n₁]⟩, ⟨3, ![a, b, n₂]⟩] ⟨3, ![a, b, n]⟩ 2) (hn : n = n₁ + n₂)
    (p : Fin a) (q : Fin b) (k : Fin n) :
    concatenate ⟨3, ![a, b, n]⟩ 2 [⟨⟨3, ![a, b, n₁]⟩, x₁⟩, ⟨⟨3, ![a, b, n₂]⟩, x₂⟩] h (ix3 p q k)
      = if hk : k.val < n₁ then x₁ (ix3 p q ⟨k.val, hk⟩) else x₂ (ix3 p q ⟨k.val - n₁, by have := k.isLt; omega⟩) := by
  split
  · rename_i hk
    refine concatenate_pair_apply_left (2 : Fin 3) x₁ x₂ h (ix3 p q k) rfl (ix3 p q ⟨k.val, hk⟩) fun ax => ?_
    match ax with
    | ⟨0, _⟩ => rfl
    | ⟨1, _⟩ => rfl
    | ⟨2, _⟩ => rfl
  · rename_i hk
    refine concatenate_pair_apply_right (2 : Fin 3) x₁ x₂ h (ix3 p q k) rfl rfl
      (ix3 p q ⟨k.val - n₁, by have := k.isLt; omega⟩) (fun ax hne => ?_) ?_
    · match ax with
      | ⟨0, _⟩ => rfl
      | ⟨1, _⟩ => rfl
      | ⟨2, _⟩ => exact absurd rfl hne
    · show k.val - n₁ + n₁ = k.val
      omega

/-- Two matrices joined along their columns, read at `(p, k)`. -/
theorem concatenate2_axis1_apply {a n₁ n₂ n : ℕ} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (hn : n = n₁ + n₂)
    (p : Fin a) (k : Fin n) :
    concatenate ⟨2, ![a, n]⟩ 1 [⟨⟨2, ![a, n₁]⟩, x₁⟩, ⟨⟨2, ![a, n₂]⟩, x₂⟩] h (ix2 p k)
      = if hk : k.val < n₁ then x₁ (ix2 p ⟨k.val, hk⟩) else x₂ (ix2 p ⟨k.val - n₁, by have := k.isLt; omega⟩) := by
  split
  · rename_i hk
    refine concatenate_pair_apply_left (1 : Fin 2) x₁ x₂ h (ix2 p k) rfl (ix2 p ⟨k.val, hk⟩) fun ax => ?_
    match ax with
    | ⟨0, _⟩ => rfl
    | ⟨1, _⟩ => rfl
  · rename_i hk
    refine concatenate_pair_apply_right (1 : Fin 2) x₁ x₂ h (ix2 p k) rfl rfl
      (ix2 p ⟨k.val - n₁, by have := k.isLt; omega⟩) (fun ax hne => ?_) ?_
    · match ax with
      | ⟨0, _⟩ => rfl
      | ⟨1, _⟩ => exact absurd rfl hne
    · show k.val - n₁ + n₁ = k.val
      omega

/-! ## The batched product -/

/-- `A · Bᵀ` for a batch `A : [a, b, k]` of rows and `B : [n, k]`, read at `(p, q, j)`: the sum over the shared last
    coordinate of the products. -/
theorem dotGeneral_abk_nk_apply {a b n k : ℕ} {φ₁ φ₂ : FTy}
    (w : DotDims.WF ⟨3, ![a, b, k]⟩ ⟨2, ![n, k]⟩ ⟨3, ![a, b, n]⟩ [2] [1] [0, 1] [0] [] [])
    (prec : Option ContractPrecision) (A : FVec Ideal ⟨3, ![a, b, k]⟩ φ₁) (B : FVec Ideal ⟨2, ![n, k]⟩ φ₂)
    (p : Fin a) (q : Fin b) (j : Fin n) :
    Host.dotGeneral (⟨[2], [1], [0, 1], [0], [], [], w⟩ : DotDims _ _ _) prec A B (ix3 p q j)
      = ∑ c : Fin k, A (ix3 p q c) * B (ix2 j c) := by
  show FloatOps.dotGeneral (⟨[2], [1], [0, 1], [0], [], [], w⟩ : DotDims _ _ _) prec .single A B (ix3 p q j) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c2 := contrEquiv1_symm_val
    (⟨[2], [1], [0, 1], [0], [], [], w⟩ : DotDims ⟨3, ![a, b, k]⟩ ⟨2, ![n, k]⟩ ⟨3, ![a, b, n]⟩) k rfl rfl c
  have l2 : (⟨[2], [1], [0, 1], [0], [], [], w⟩ : DotDims ⟨3, ![a, b, k]⟩ ⟨2, ![n, k]⟩ ⟨3, ![a, b, n]⟩).lhsIdx (ix3 p q j)
      ((contrEquiv1 _ k rfl rfl).symm c) = ix3 p q c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [0, 1], [0], [], [], w⟩ : DotDims ⟨3, ![a, b, k]⟩ ⟨2, ![n, k]⟩ ⟨3, ![a, b, n]⟩).rhsIdx (ix3 p q j)
      ((contrEquiv1 _ k rfl rfl).symm c) = ix2 j c := by
    funext ax; apply Fin.ext
    match ax with
    | ⟨0, _⟩ => simp [DotDims.rhsIdx]; rfl
    | ⟨1, _⟩ => simp [DotDims.rhsIdx]; exact c2
  rw [l2, r2]

end Cert.RankThree

end
-- ==== Proof.KernelBody.lean ====
/-
  What the kernel's body leaves in its output block, as a function of the blocks it loads.

  The body works on 2048 rows at a time.  Written as array operations it is: layer 0's gates for both directions
  (the row's scalar times a weight row, plus the sum of the two bias rows), a cell on each, the two hidden halves
  joined; twice more the same with the gates a matrix product of the joined halves with a 256 × 512 weight block plus
  the two bias rows one after the other; and the head, a product with a 256 × 2 block plus its bias row.  Each of these
  array functions is read here at a row `p` and a column: row `p` of the result depends on row `p` of the input column
  only, through the row-level functions of `LstmSpec`.
-/
import proofs.«119629_j36713380446230_1_alg».proof.Proof.Gen.KernelIdeal.Frame
import proofs.«119629_j36713380446230_1_alg».proof.Proof.LstmSpec
import proofs.«119629_j36713380446230_1_alg».proof.Proof.LibBroadcast
import proofs.«119629_j36713380446230_1_alg».proof.Proof.LibPlainProduct
import proofs.«119629_j36713380446230_1_alg».proof.Proof.LibUnitAxes
import proofs.«119629_j36713380446230_1_alg».proof.Proof.LibRankThree
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Lstm

/-- Layer 0's gates for a block of rows: the input column against a weight row, plus the sum of two bias rows. -/
def gates0V (v0 : FVec Ideal S2048x1 .f32) (w : FVec Ideal S1x512 .f32) (bi bh : FVec Ideal S1x1x512 .f32) : FVec Ideal S2048x512 .f32 :=
  addf (mulf (broadcastTo S2048x512 (shapeCast S2048x1 v0 shapeCasts_S2048x1_S2048x1) broadcasts_S2048x1_S2048x512)
      (broadcastTo S2048x512 (shapeCast S1x512 (shapeCast S512 w shapeCasts_S1x512_S512) shapeCasts_S512_S1x512) broadcasts_S1x512_S2048x512))
    (broadcastTo S2048x512 (shapeCast S1x512 (addf (shapeCast S512 bi shapeCasts_S1x1x512_S512) (shapeCast S512 bh shapeCasts_S1x1x512_S512)) shapeCasts_S512_S1x512) broadcasts_S1x512_S2048x512)

/-- One cell on a block of gate rows. -/
def cellV (g : FVec Ideal S2048x512 .f32) : FVec Ideal S2048x128 .f32 :=
  mulf (logistic (extractStridedSlice S2048x128 ![0, 384] g slices_S2048x512_o0_384_S2048x128))
    (tanh (mulf (logistic (extractStridedSlice S2048x128 ![0, 0] g slices_S2048x512_o0_0_S2048x128))
      (tanh (extractStridedSlice S2048x128 ![0, 256] g slices_S2048x512_o0_256_S2048x128))))

/-- The two directions' hidden halves joined. -/
def hiddenV (gf gb : FVec Ideal S2048x512 .f32) : FVec Ideal S2048x256 .bf16 :=
  truncf .bf16 (concatenate S2048x256 1 [⟨S2048x128, cellV gf⟩, ⟨S2048x128, cellV gb⟩] concatenates_S2048x128_S2048x128_S2048x256_d1) bitsLt_bf16_f32

/-- A deeper layer's gates for a block of rows. -/
def gatesV (h : FVec Ideal S2048x256 .bf16) (w : FVec Ideal S1x1x256x512 .f32) (bi bh : FVec Ideal S1x1x512 .f32) : FVec Ideal S2048x512 .f32 :=
  addf (addf (matmul dot_S2048x256_S256x512_S2048x512_1_0_0_1_n_n none h
        (truncf .bf16 (shapeCast S256x512 w shapeCasts_S1x1x256x512_S256x512) bitsLt_bf16_f32) (constant S2048x512 .f32 0x00000000#32))
      (broadcastTo S2048x512 (shapeCast S1x512 (shapeCast S512 bi shapeCasts_S1x1x512_S512) shapeCasts_S512_S1x512) broadcasts_S1x512_S2048x512))
    (broadcastTo S2048x512 (shapeCast S1x512 (shapeCast S512 bh shapeCasts_S1x1x512_S512) shapeCasts_S512_S1x512) broadcasts_S1x512_S2048x512)

/-- The head for a block of rows. -/
def headV (h : FVec Ideal S2048x256 .bf16) (w : FVec Ideal S256x2 .f32) (b : FVec Ideal S1x2 .f32) : FVec Ideal S2048x2 .f32 :=
  addf (matmul dot_S2048x256_S256x2_S2048x2_1_0_0_1_n_n none h
      (truncf .bf16 (shapeCast S256x2 w shapeCasts_S256x2_S256x2) bitsLt_bf16_f32) (constant S2048x2 .f32 0x00000000#32))
    (broadcastTo S2048x2 (shapeCast S1x2 b shapeCasts_S1x2_S1x2) broadcasts_S1x2_S2048x2)

variable (x0 : Vec Ideal S2048x1 .f32) (x1 : Vec Ideal S2x512 .f32) (x2 : Vec Ideal S2x2x256x512 .f32)
  (x3 x4 : Vec Ideal S3x2x512 .f32) (x5 : Vec Ideal S256x2 .f32) (x6 : Vec Ideal S1x2 .f32)

/-- Layer 0's joined hidden halves from the loaded blocks. -/
def h0V : FVec Ideal S2048x256 .bf16 :=
  hiddenV (gates0V (View.ld x0 r0_0) (View.ld x1 r0_1) (View.ld x3 r0_3) (View.ld x4 r0_3))
    (gates0V (View.ld x0 r0_0) (View.ld x1 r0_2) (View.ld x3 r0_4) (View.ld x4 r0_4))

/-- Layer 1's. -/
def h1V : FVec Ideal S2048x256 .bf16 :=
  hiddenV (gatesV (h0V x0 x1 x3 x4) (View.ld x2 r0_5) (View.ld x3 r0_7) (View.ld x4 r0_7))
    (gatesV (h0V x0 x1 x3 x4) (View.ld x2 r0_6) (View.ld x3 r0_8) (View.ld x4 r0_8))

/-- Layer 2's. -/
def h2V : FVec Ideal S2048x256 .bf16 :=
  hiddenV (gatesV (h1V x0 x1 x2 x3 x4) (View.ld x2 r0_9) (View.ld x3 r0_11) (View.ld x4 r0_11))
    (gatesV (h1V x0 x1 x2 x3 x4) (View.ld x2 r0_10) (View.ld x3 r0_12) (View.ld x4 r0_12))

/-- The output block. -/
def bodyV : FVec Ideal S2048x2 .f32 :=
  headV (h2V x0 x1 x2 x3 x4) (View.ld x5 r0_13) (View.ld x6 r0_14)

theorem hz2 : (![0, 0] : Fin 2 → Nat) = fun _ => 0 := funext fun a => by fin_cases a <;> rfl

/-- The body's one store covers the output block, and its payload is the array function above. -/
theorem out_eq : out0_7 (F := Ideal) x0 x1 x2 x3 x4 x5 x6 = bodyV x0 x1 x2 x3 x4 x5 x6 := by
  unfold out0_7
  rw [View.canon_unit_zero hz2]
  rfl

/-! ## Each array function read at a row -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- A load through a unit-stride rectangle reads the buffer at the rectangle's offset plus the local coordinate. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit (s := S) off size inb) y = X k := by
  show X ((Rect.unit off size inb).idx y) = X k
  refine congrArg X (funext fun a => Fin.ext ?_)
  have := hk a
  show off a + 1 * (y a).val = (k a).val
  omega

theorem gates0V_apply (v0 : FVec Ideal S2048x1 .f32) (w : FVec Ideal S1x512 .f32) (bi bh : FVec Ideal S1x1x512 .f32)
    (p : Fin 2048) (n : Fin 512) :
    gates0V v0 w bi bh (ix2 p n)
      = gates0 (v0 (ix2 p (0 : Fin 1))) (fun n => w (ix2 (0 : Fin 1) n)) (fun n => bi (ix3 (0 : Fin 1) (0 : Fin 1) n))
          (fun n => bh (ix3 (0 : Fin 1) (0 : Fin 1) n)) n := by
  unfold gates0V gates0
  rw [addf_apply, mulf_apply, Cert.Layout.broadcastTo_a1_ab_apply, shapeCast_self, broadcastTo_1b_ab_apply, shapeCast_a_1a_apply,
    shapeCast_1a_a_apply, broadcastTo_1b_ab_apply, shapeCast_a_1a_apply, addf_apply, Cert.RankThree.shapeCast_11n_n_apply,
    Cert.RankThree.shapeCast_11n_n_apply]
  exact (add_assoc _ _ _).symm

theorem cellV_apply (g : FVec Ideal S2048x512 .f32) (p : Fin 2048) (j : Fin 128) :
    cellV g (ix2 p j) = cell (fun n => g (ix2 p n)) j := by
  unfold cellV cell
  rw [mulf_apply, logistic_apply, tanh_apply, mulf_apply, logistic_apply, tanh_apply,
    slice2_axis1_apply 384 g _ p j (lane 384 (by norm_num) j) rfl,
    slice2_axis1_apply 0 g _ p j (lane 0 (by norm_num) j) rfl,
    slice2_axis1_apply 256 g _ p j (lane 256 (by norm_num) j) rfl]

theorem hiddenV_apply (gf gb : FVec Ideal S2048x512 .f32) (p : Fin 2048) (k : Fin 256) :
    hiddenV gf gb (ix2 p k) = Lstm.hidden (fun n => gf (ix2 p n)) (fun n => gb (ix2 p n)) k := by
  unfold hiddenV Lstm.hidden join
  rw [truncf_apply, Cert.RankThree.concatenate2_axis1_apply _ _ _ (by norm_num) p k]
  simp only [cellV_apply]

theorem gatesV_apply (h : FVec Ideal S2048x256 .bf16) (w : FVec Ideal S1x1x256x512 .f32) (bi bh : FVec Ideal S1x1x512 .f32)
    (p : Fin 2048) (n : Fin 512) :
    gatesV h w bi bh (ix2 p n)
      = gates (fun k => h (ix2 p k)) (fun n k => w (ix4 (0 : Fin 1) (0 : Fin 1) k n)) (fun n => bi (ix3 (0 : Fin 1) (0 : Fin 1) n))
          (fun n => bh (ix3 (0 : Fin 1) (0 : Fin 1) n)) n := by
  unfold gatesV gates
  rw [addf_apply, addf_apply,
    show matmul dot_S2048x256_S256x512_S2048x512_1_0_0_1_n_n none h
        (truncf .bf16 (shapeCast S256x512 w shapeCasts_S1x1x256x512_S256x512) bitsLt_bf16_f32) (constant S2048x512 .f32 0x00000000#32) (ix2 p n) = _
      from Cert.PlainProduct.matmul_nn_apply dot_S2048x256_S256x512_S2048x512_1_0_0_1_n_n_wf none h _ p n,
    broadcastTo_1b_ab_apply, shapeCast_a_1a_apply, Cert.RankThree.shapeCast_11n_n_apply,
    broadcastTo_1b_ab_apply, shapeCast_a_1a_apply, Cert.RankThree.shapeCast_11n_n_apply]
  simp only [truncf_apply, Cert.Layout.shapeCast_11ab_ab_apply]

theorem headV_apply (h : FVec Ideal S2048x256 .bf16) (w : FVec Ideal S256x2 .f32) (b : FVec Ideal S1x2 .f32)
    (p : Fin 2048) (c : Fin 2) :
    headV h w b (ix2 p c) = head (fun k => h (ix2 p k)) (fun c k => w (ix2 k c)) (fun c => b (ix2 (0 : Fin 1) c)) c := by
  unfold headV head
  rw [addf_apply,
    show matmul dot_S2048x256_S256x2_S2048x2_1_0_0_1_n_n none h
        (truncf .bf16 (shapeCast S256x2 w shapeCasts_S256x2_S256x2) bitsLt_bf16_f32) (constant S2048x2 .f32 0x00000000#32) (ix2 p c) = _
      from Cert.PlainProduct.matmul_nn_apply dot_S2048x256_S256x2_S2048x2_1_0_0_1_n_n_wf none h _ p c,
    broadcastTo_1b_ab_apply, shapeCast_self]
  simp only [truncf_apply, shapeCast_self]

/-! ## The loads: which rows of the weight and bias blocks the body reads -/

/-- Row `(l, d)` of a `[3, 2, 512]` bias block, loaded as `[1, 1, 512]`. -/
theorem ld_bias (X : Vec Ideal S3x2x512 .f32) (l : Fin 3) (d : Fin 2) (off : Fin 3 → Nat) (ho : off = ![l.val, d.val, 0])
    (inb : ∀ a, off a + S1x1x512.size a ≤ S3x2x512.size a) (n : Fin 512) :
    View.ld X (Rect.unit (s := S3x2x512) off S1x1x512.size inb) (ix3 (0 : Fin 1) (0 : Fin 1) n) = X (ix3 l d n) := by
  subst ho
  refine ld_unit_apply X _ _ inb _ _ fun a => ?_
  match a with
  | ⟨0, _⟩ => rfl
  | ⟨1, _⟩ => rfl
  | ⟨2, _⟩ => exact (Nat.zero_add _).symm

/-- Slab `(l, d)` of the `[2, 2, 256, 512]` weight block, loaded as `[1, 1, 256, 512]`. -/
theorem ld_weights (X : Vec Ideal S2x2x256x512 .f32) (l d : Fin 2) (off : Fin 4 → Nat) (ho : off = ![l.val, d.val, 0, 0])
    (inb : ∀ a, off a + S1x1x256x512.size a ≤ S2x2x256x512.size a) (k : Fin 256) (n : Fin 512) :
    View.ld X (Rect.unit (s := S2x2x256x512) off S1x1x256x512.size inb) (ix4 (0 : Fin 1) (0 : Fin 1) k n) = X (ix4 l d k n) := by
  subst ho
  refine ld_unit_apply X _ _ inb _ _ fun a => ?_
  match a with
  | ⟨0, _⟩ => rfl
  | ⟨1, _⟩ => rfl
  | ⟨2, _⟩ => exact (Nat.zero_add _).symm
  | ⟨3, _⟩ => exact (Nat.zero_add _).symm

/-- Row `d` of the `[2, 512]` layer-0 weight block, loaded as `[1, 512]`. -/
theorem ld_w0 (X : Vec Ideal S2x512 .f32) (d : Fin 2) (off : Fin 2 → Nat) (ho : off = ![d.val, 0])
    (inb : ∀ a, off a + S1x512.size a ≤ S2x512.size a) (n : Fin 512) :
    View.ld X (Rect.unit (s := S2x512) off S1x512.size inb) (ix2 (0 : Fin 1) n) = X (ix2 d n) := by
  subst ho
  refine ld_unit_apply X _ _ inb _ _ fun a => ?_
  match a with
  | ⟨0, _⟩ => rfl
  | ⟨1, _⟩ => exact (Nat.zero_add _).symm

theorem ld_r1 (n : Fin 512) : View.ld x1 r0_1 (ix2 (0 : Fin 1) n) = x1 (ix2 (0 : Fin 2) n) := ld_w0 x1 0 _ rfl _ n
theorem ld_r2 (n : Fin 512) : View.ld x1 r0_2 (ix2 (0 : Fin 1) n) = x1 (ix2 (1 : Fin 2) n) := ld_w0 x1 1 _ rfl _ n
theorem ld_r3 (X : Vec Ideal S3x2x512 .f32) (n : Fin 512) : View.ld X r0_3 (ix3 (0 : Fin 1) (0 : Fin 1) n) = X (ix3 (0 : Fin 3) (0 : Fin 2) n) := ld_bias X 0 0 _ rfl _ n
theorem ld_r4 (X : Vec Ideal S3x2x512 .f32) (n : Fin 512) : View.ld X r0_4 (ix3 (0 : Fin 1) (0 : Fin 1) n) = X (ix3 (0 : Fin 3) (1 : Fin 2) n) := ld_bias X 0 1 _ rfl _ n
theorem ld_r7 (X : Vec Ideal S3x2x512 .f32) (n : Fin 512) : View.ld X r0_7 (ix3 (0 : Fin 1) (0 : Fin 1) n) = X (ix3 (1 : Fin 3) (0 : Fin 2) n) := ld_bias X 1 0 _ rfl _ n
theorem ld_r8 (X : Vec Ideal S3x2x512 .f32) (n : Fin 512) : View.ld X r0_8 (ix3 (0 : Fin 1) (0 : Fin 1) n) = X (ix3 (1 : Fin 3) (1 : Fin 2) n) := ld_bias X 1 1 _ rfl _ n
theorem ld_r11 (X : Vec Ideal S3x2x512 .f32) (n : Fin 512) : View.ld X r0_11 (ix3 (0 : Fin 1) (0 : Fin 1) n) = X (ix3 (2 : Fin 3) (0 : Fin 2) n) := ld_bias X 2 0 _ rfl _ n
theorem ld_r12 (X : Vec Ideal S3x2x512 .f32) (n : Fin 512) : View.ld X r0_12 (ix3 (0 : Fin 1) (0 : Fin 1) n) = X (ix3 (2 : Fin 3) (1 : Fin 2) n) := ld_bias X 2 1 _ rfl _ n
theorem ld_r5 (k : Fin 256) (n : Fin 512) : View.ld x2 r0_5 (ix4 (0 : Fin 1) (0 : Fin 1) k n) = x2 (ix4 (0 : Fin 2) (0 : Fin 2) k n) := ld_weights x2 0 0 _ rfl _ k n
theorem ld_r6 (k : Fin 256) (n : Fin 512) : View.ld x2 r0_6 (ix4 (0 : Fin 1) (0 : Fin 1) k n) = x2 (ix4 (0 : Fin 2) (1 : Fin 2) k n) := ld_weights x2 0 1 _ rfl _ k n
theorem ld_r9 (k : Fin 256) (n : Fin 512) : View.ld x2 r0_9 (ix4 (0 : Fin 1) (0 : Fin 1) k n) = x2 (ix4 (1 : Fin 2) (0 : Fin 2) k n) := ld_weights x2 1 0 _ rfl _ k n
theorem ld_r10 (k : Fin 256) (n : Fin 512) : View.ld x2 r0_10 (ix4 (0 : Fin 1) (0 : Fin 1) k n) = x2 (ix4 (1 : Fin 2) (1 : Fin 2) k n) := ld_weights x2 1 1 _ rfl _ k n

/-! The same as equations between functions of the lane. -/

theorem ld_r1' : (fun n => View.ld x1 r0_1 (ix2 (0 : Fin 1) n)) = fun n => x1 (ix2 (0 : Fin 2) n) := funext (ld_r1 x1)
theorem ld_r2' : (fun n => View.ld x1 r0_2 (ix2 (0 : Fin 1) n)) = fun n => x1 (ix2 (1 : Fin 2) n) := funext (ld_r2 x1)
theorem ld_r3' (X : Vec Ideal S3x2x512 .f32) : (fun n => View.ld X r0_3 (ix3 (0 : Fin 1) (0 : Fin 1) n)) = fun n => X (ix3 (0 : Fin 3) (0 : Fin 2) n) := funext (ld_r3 X)
theorem ld_r4' (X : Vec Ideal S3x2x512 .f32) : (fun n => View.ld X r0_4 (ix3 (0 : Fin 1) (0 : Fin 1) n)) = fun n => X (ix3 (0 : Fin 3) (1 : Fin 2) n) := funext (ld_r4 X)
theorem ld_r7' (X : Vec Ideal S3x2x512 .f32) : (fun n => View.ld X r0_7 (ix3 (0 : Fin 1) (0 : Fin 1) n)) = fun n => X (ix3 (1 : Fin 3) (0 : Fin 2) n) := funext (ld_r7 X)
theorem ld_r8' (X : Vec Ideal S3x2x512 .f32) : (fun n => View.ld X r0_8 (ix3 (0 : Fin 1) (0 : Fin 1) n)) = fun n => X (ix3 (1 : Fin 3) (1 : Fin 2) n) := funext (ld_r8 X)
theorem ld_r11' (X : Vec Ideal S3x2x512 .f32) : (fun n => View.ld X r0_11 (ix3 (0 : Fin 1) (0 : Fin 1) n)) = fun n => X (ix3 (2 : Fin 3) (0 : Fin 2) n) := funext (ld_r11 X)
theorem ld_r12' (X : Vec Ideal S3x2x512 .f32) : (fun n => View.ld X r0_12 (ix3 (0 : Fin 1) (0 : Fin 1) n)) = fun n => X (ix3 (2 : Fin 3) (1 : Fin 2) n) := funext (ld_r12 X)
theorem ld_r5' : (fun (n : Fin 512) (k : Fin 256) => View.ld x2 r0_5 (ix4 (0 : Fin 1) (0 : Fin 1) k n)) = fun n k => x2 (ix4 (0 : Fin 2) (0 : Fin 2) k n) := funext fun n => funext fun k => ld_r5 x2 k n
theorem ld_r6' : (fun (n : Fin 512) (k : Fin 256) => View.ld x2 r0_6 (ix4 (0 : Fin 1) (0 : Fin 1) k n)) = fun n k => x2 (ix4 (0 : Fin 2) (1 : Fin 2) k n) := funext fun n => funext fun k => ld_r6 x2 k n
theorem ld_r9' : (fun (n : Fin 512) (k : Fin 256) => View.ld x2 r0_9 (ix4 (0 : Fin 1) (0 : Fin 1) k n)) = fun n k => x2 (ix4 (1 : Fin 2) (0 : Fin 2) k n) := funext fun n => funext fun k => ld_r9 x2 k n
theorem ld_r10' : (fun (n : Fin 512) (k : Fin 256) => View.ld x2 r0_10 (ix4 (0 : Fin 1) (0 : Fin 1) k n)) = fun n k => x2 (ix4 (1 : Fin 2) (1 : Fin 2) k n) := funext fun n => funext fun k => ld_r10 x2 k n

/-! ## The network, layer by layer, at a row -/

theorem h0V_apply (p : Fin 2048) (k : Fin 256) :
    h0V x0 x1 x3 x4 (ix2 p k)
      = hidden0 (x0 (ix2 p (0 : Fin 1))) (fun d n => x1 (ix2 d n)) (fun d n => x3 (ix3 (0 : Fin 3) d n)) (fun d n => x4 (ix3 (0 : Fin 3) d n)) k := by
  unfold h0V hidden0
  rw [hiddenV_apply]
  simp only [gates0V_apply, View.ld_unit_zero (S := S2048x1) hz2]
  rw [ld_r1' x1, ld_r2' x1, ld_r3' x3, ld_r3' x4, ld_r4' x3, ld_r4' x4] <;> rfl

theorem h1V_apply (p : Fin 2048) (k : Fin 256) :
    h1V x0 x1 x2 x3 x4 (ix2 p k)
      = hiddenN (hidden0 (x0 (ix2 p (0 : Fin 1))) (fun d n => x1 (ix2 d n)) (fun d n => x3 (ix3 (0 : Fin 3) d n)) (fun d n => x4 (ix3 (0 : Fin 3) d n)))
          (fun d n k => x2 (ix4 (0 : Fin 2) d k n)) (fun d n => x3 (ix3 (1 : Fin 3) d n)) (fun d n => x4 (ix3 (1 : Fin 3) d n)) k := by
  unfold h1V hiddenN
  rw [hiddenV_apply]
  simp only [gatesV_apply, h0V_apply]
  rw [ld_r5' x2, ld_r6' x2, ld_r7' x3, ld_r7' x4, ld_r8' x3, ld_r8' x4] <;> rfl

theorem h2V_apply (p : Fin 2048) (k : Fin 256) :
    h2V x0 x1 x2 x3 x4 (ix2 p k)
      = hiddenN (hiddenN (hidden0 (x0 (ix2 p (0 : Fin 1))) (fun d n => x1 (ix2 d n)) (fun d n => x3 (ix3 (0 : Fin 3) d n)) (fun d n => x4 (ix3 (0 : Fin 3) d n)))
            (fun d n k => x2 (ix4 (0 : Fin 2) d k n)) (fun d n => x3 (ix3 (1 : Fin 3) d n)) (fun d n => x4 (ix3 (1 : Fin 3) d n)))
          (fun d n k => x2 (ix4 (1 : Fin 2) d k n)) (fun d n => x3 (ix3 (2 : Fin 3) d n)) (fun d n => x4 (ix3 (2 : Fin 3) d n)) k := by
  unfold h2V hiddenN
  rw [hiddenV_apply]
  simp only [gatesV_apply, h1V_apply]
  rw [ld_r9' x2, ld_r10' x2, ld_r11' x3, ld_r11' x4, ld_r12' x3, ld_r12' x4] <;> rfl

/-- Row `p` of the output block is the network at the row's input scalar, with the weights as the blocks hold them:
    layer 0's as `[2, 512]`, the deeper layers' with their last two axes exchanged, the head's matrix transposed, the
    head's bias as a row. -/
theorem bodyV_apply (p : Fin 2048) (c : Fin 2) :
    bodyV x0 x1 x2 x3 x4 x5 x6 (ix2 p c)
      = row (x0 (ix2 p (0 : Fin 1))) (fun d n => x1 (ix2 d n)) (fun l d n k => x2 (ix4 l d k n)) (fun l d n => x3 (ix3 l d n))
          (fun l d n => x4 (ix3 l d n)) (fun c k => x5 (ix2 k c)) (fun c => x6 (ix2 (0 : Fin 1) c)) c := by
  unfold bodyV row
  rw [View.ld_unit_zero (S := S256x2) hz2, View.ld_unit_zero (S := S1x2) hz2, headV_apply]
  simp only [h2V_apply] <;> rfl

end Cert.KernelIdeal.Body

end
-- ==== Proof.LibMergeAxes.lean ====
/-
  Row-major re-layouts and broadcasts of small-rank arrays, each read at an index written by coordinates.

  * Two leading axes merged: an `[a, b, c]` array seen as `[n, c]` with `n = a · b` has row `p · b + u` equal to the
    operand's `(p, u, ·)`; and the same the other way round, one leading axis of extent `n` split as `(a, b)`.
  * A unit axis put in the middle: `[a, c]` seen as `[a, 1, c]`.
  * A rank-3 array with a unit axis broadcast along it: `[a, 1, c]` to `[a, b, c]` repeats every `(p, ·)` over `u`;
    `[1, b, c]` to `[a, b, c]` repeats the one slab over `p`.
-/
import Idealize.ShloMosaic.Lib.Pipeline.Value
import Idealize.ShloMosaic.Lib.ValueLayout
import Idealize.ShloMosaic.Lib.ValueIdx

noncomputable section

namespace Cert.MergeAxes

open Idealize.ShloMosaic Idealize.ShloMosaic.ValueIdx

variable {α : Type}

/-- An `[a, b, c]` array re-laid as `[n, c]` reads, at row `r = p · b + u` and column `j`, the operand at `(p, u, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (j : Fin c) (p : Fin a) (u : Fin b)
    (hr : r.val = p.val * b + u.val) :
    shapeCast ⟨2, ![n, c]⟩ x h (ix2 r j) = x (ix3 p u j) :=
  shapeCast_apply x h _ _ (by
    rw [Shape.rowMajor_val_three, Shape.rowMajor_val_two]
    show (p.val * b + u.val) * c + j.val = r.val * c + j.val
    rw [hr])

/-- An `[n, c]` array re-laid as `[a, b, c]` reads, at `(p, u, j)`, the operand's row `r = p · b + u` at column `j`. -/
theorem shapeCast_nc_abc_apply {a b c n : ℕ} (x : (⟨2, ![n, c]⟩ : Shape).Idx → α)
    (h : (⟨2, ![n, c]⟩ : Shape).ShapeCasts ⟨3, ![a, b, c]⟩) (p : Fin a) (u : Fin b) (j : Fin c) (r : Fin n)
    (hr : r.val = p.val * b + u.val) :
    shapeCast ⟨3, ![a, b, c]⟩ x h (ix3 p u j) = x (ix2 r j) :=
  shapeCast_apply x h _ _ (by
    rw [Shape.rowMajor_val_three, Shape.rowMajor_val_two]
    show r.val * c + j.val = (p.val * b + u.val) * c + j.val
    rw [hr])

/-- An `[a, c]` array re-laid as `[a, 1, c]` reads, at `(p, z, j)`, the operand at `(p, j)`, whatever the unit coordinate. -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (j : Fin c) :
    shapeCast ⟨3, ![a, 1, c]⟩ x h (ix3 p z j) = x (ix2 p j) :=
  shapeCast_apply x h _ _ (by
    have hz : z.val = 0 := by omega
    rw [Shape.rowMajor_val_three, Shape.rowMajor_val_two]
    show p.val * c + j.val = (p.val * 1 + z.val) * c + j.val
    rw [hz, Nat.mul_one, Nat.add_zero])

/-- An `[a, 1, c]` array broadcast to `[a, b, c]` reads, at `(p, u, j)`, the operand at `(p, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (u : Fin b) (j : Fin c) :
    broadcastTo ⟨3, ![a, b, c]⟩ v h (ix3 p u j) = v (ix3 p (0 : Fin 1) j) := by
  refine broadcastTo_apply v h (ix3 p u j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (u : Fin b) (j : Fin c) :
    broadcastTo ⟨3, ![a, b, c]⟩ v h (ix3 p u j) = v (ix3 (0 : Fin 1) u j) := by
  refine broadcastTo_apply v h (ix3 p u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

end Cert.MergeAxes

end
-- ==== Proof.KernelRun.lean ====
/-
  The kernel's run read as a value: after it, the result array holds the network's value at every `(b, t, c)`.

  The program re-lays its arguments before the launch (the input as a column of 65536 rows, layer 0's weights without
  their unit axis, the deeper layers' weights and the head's matrix transposed, the head's bias as a row), launches the
  body on 32 blocks of 2048 rows, and re-lays the `[65536, 2]` output as `[32, 2048, 2]`.  Row `r` of the column is
  `x (r / 2048, r % 2048)`, block `t` holds the rows of batch entry `t`, every weight block is its whole array at
  every point, and the blocks of the output tile it: row `r` is written by point `r / 2048` and by no other.
-/
import proofs.«119629_j36713380446230_1_alg».proof.Proof.KernelBody
import proofs.«119629_j36713380446230_1_alg».proof.Proof.LibMergeAxes
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-- The seven argument arrays on core `c`, as launched. -/
abbrev a0 (c : Dev nD) : FVec Ideal S32x2048 .f32 := m ((c : Thread nD τ).loc main_arg0)
abbrev a1 (c : Dev nD) : FVec Ideal S2x512x1 .f32 := m ((c : Thread nD τ).loc main_arg1)
abbrev a2 (c : Dev nD) : FVec Ideal S2x2x512x256 .f32 := m ((c : Thread nD τ).loc main_arg2)
abbrev a3 (c : Dev nD) : FVec Ideal S3x2x512 .f32 := m ((c : Thread nD τ).loc main_arg3)
abbrev a4 (c : Dev nD) : FVec Ideal S3x2x512 .f32 := m ((c : Thread nD τ).loc main_arg4)
abbrev a5 (c : Dev nD) : FVec Ideal S2x256 .f32 := m ((c : Thread nD τ).loc main_arg5)
abbrev a6 (c : Dev nD) : FVec Ideal S2 .f32 := m ((c : Thread nD τ).loc main_arg6)

/-! ## The arrays the region finds -/

theorem V_v0 (c : Dev nD) : V m c main_v0 = shapeCast S65536x1 (a0 m c) shapeCasts_S32x2048_S65536x1 := by
  show StableHlo.after hostOps0 (fun b => m (c, b)) (Proc.devRef .tc main_v0) = _
  after_results <;> rfl

theorem V_v1 (c : Dev nD) : V m c main_v1 = shapeCast S2x512 (a1 m c) shapeCasts_S2x512x1_S2x512 := by
  show StableHlo.after hostOps0 (fun b => m (c, b)) (Proc.devRef .tc main_v1) = _
  after_results <;> rfl

theorem V_v2 (c : Dev nD) :
    V m c main_v2 = transpose S2x2x256x512 [0, 1, 3, 2] (a2 m c) transposes_S2x2x512x256_S2x2x256x512_0_1_3_2 := by
  show StableHlo.after hostOps0 (fun b => m (c, b)) (Proc.devRef .tc main_v2) = _
  after_results <;> rfl

theorem V_v3 (c : Dev nD) : V m c main_v3 = transpose S256x2 [1, 0] (a5 m c) transposes_S2x256_S256x2_1_0 := by
  show StableHlo.after hostOps0 (fun b => m (c, b)) (Proc.devRef .tc main_v3) = _
  after_results <;> rfl

theorem V_v4 (c : Dev nD) : V m c main_v4 = shapeCast S1x2 (a6 m c) shapeCasts_S2_S1x2 := by
  show StableHlo.after hostOps0 (fun b => m (c, b)) (Proc.devRef .tc main_v4) = _
  after_results <;> rfl

/-- Row `b · 2048 + p` of the input column is `x (b, p)`. -/
theorem V_v0_apply (c : Dev nD) (b : Fin 32) (p : Fin 2048) (r : Fin 65536) (hr : r.val = b.val * 2048 + p.val) :
    V m c main_v0 (ix2 r (0 : Fin 1)) = a0 m c (ix2 b p) := by
  refine (congrFun (V_v0 m c) _).trans (shapeCast_apply _ _ _ _ ?_)
  rw [Shape.rowMajor_val_two, Shape.rowMajor_val_two]
  show b.val * 2048 + p.val = r.val * 1 + 0
  omega

theorem V_v1_apply (c : Dev nD) (d : Fin 2) (n : Fin 512) : V m c main_v1 (ix2 d n) = a1 m c (ix3 d n (0 : Fin 1)) := by
  refine (congrFun (V_v1 m c) _).trans (shapeCast_apply _ _ _ _ ?_)
  rw [Shape.rowMajor_val_three, Shape.rowMajor_val_two]
  show (d.val * 512 + n.val) * 1 + 0 = d.val * 512 + n.val
  omega

theorem V_v2_apply (c : Dev nD) (l d : Fin 2) (k : Fin 256) (n : Fin 512) :
    V m c main_v2 (ix4 l d k n) = a2 m c (ix4 l d n k) := by
  refine (congrFun (V_v2 m c) _).trans (transpose_apply [0, 1, 3, 2] _ _ (ix4 l d k n) (ix4 l d n k) fun ax => ?_)
  match ax with
  | ⟨0, _⟩ => rfl
  | ⟨1, _⟩ => rfl
  | ⟨2, _⟩ => rfl
  | ⟨3, _⟩ => rfl

theorem V_v3_apply (c : Dev nD) (k : Fin 256) (q : Fin 2) : V m c main_v3 (ix2 k q) = a5 m c (ix2 q k) :=
  (congrFun (V_v3 m c) _).trans (Cert.Layout.transpose_ab_apply _ _ k q)

theorem V_v4_apply (c : Dev nD) (q : Fin 2) : V m c main_v4 (ix2 (0 : Fin 1) q) = a6 m c (ix1 q) :=
  (congrFun (V_v4 m c) _).trans (shapeCast_a_1a_apply _ _ 0 q)

/-! ## The blocks at a point -/

/-- The printed index maps over the 32 points: the input column and the output move one block of rows per point; every
    other window stays on its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 4) = 0 ∧ win0_2.index t (1 : Fin 4) = 0 ∧ win0_2.index t (2 : Fin 4) = 0 ∧ win0_2.index t (3 : Fin 4) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem tlt (t : Fin cfg0.N) : t.val < 32 := t.isLt

theorem blk0_apply (c : Dev nD) (t : Fin cfg0.N) (p : Fin 2048) :
    iblk m c 0 t (ix2 p (0 : Fin 1)) = a0 m c (ix2 (⟨t.val, tlt t⟩ : Fin 32) p) := by
  obtain ⟨e0, e1, -⟩ := idx_facts t
  show V m c main_v0 (((cfg0.win 0).blk t).view.emb (ix2 p (0 : Fin 1))) = _
  have he : ((cfg0.win 0).blk t).view.emb (ix2 p (0 : Fin 1))
      = ix2 (⟨t.val * 2048 + p.val, by have := tlt t; have := p.isLt; omega⟩ : Fin 65536) (0 : Fin 1) := by
    funext a; apply Fin.ext
    match a with
    | ⟨0, _⟩ => show win0_0.index t (0 : Fin 2) * 2048 + 1 * p.val = t.val * 2048 + p.val; rw [e0]; omega
    | ⟨1, _⟩ => show win0_0.index t (1 : Fin 2) * 1 + 1 * 0 = 0; rw [e1]
  rw [he]
  exact V_v0_apply m c ⟨t.val, tlt t⟩ p _ rfl

theorem blk1_apply (c : Dev nD) (t : Fin cfg0.N) (d : Fin 2) (n : Fin 512) :
    iblk m c 1 t (ix2 d n) = a1 m c (ix3 d n (0 : Fin 1)) := by
  obtain ⟨-, -, e0, e1, -⟩ := idx_facts t
  show V m c main_v1 (((cfg0.win 1).blk t).view.emb (ix2 d n)) = _
  have he : ((cfg0.win 1).blk t).view.emb (ix2 d n) = ix2 d n := by
    funext a; apply Fin.ext
    match a with
    | ⟨0, _⟩ => show win0_1.index t (0 : Fin 2) * 2 + 1 * d.val = d.val; rw [e0]; omega
    | ⟨1, _⟩ => show win0_1.index t (1 : Fin 2) * 512 + 1 * n.val = n.val; rw [e1]; omega
  rw [he]
  exact V_v1_apply m c d n

theorem blk2_apply (c : Dev nD) (t : Fin cfg0.N) (l d : Fin 2) (k : Fin 256) (n : Fin 512) :
    iblk m c 2 t (ix4 l d k n) = a2 m c (ix4 l d n k) := by
  obtain ⟨-, -, -, -, e0, e1, e2, e3, -⟩ := idx_facts t
  show V m c main_v2 (((cfg0.win 2).blk t).view.emb (ix4 l d k n)) = _
  have he : ((cfg0.win 2).blk t).view.emb (ix4 l d k n) = ix4 l d k n := by
    funext a; apply Fin.ext
    match a with
    | ⟨0, _⟩ => show win0_2.index t (0 : Fin 4) * 2 + 1 * l.val = l.val; rw [e0]; omega
    | ⟨1, _⟩ => show win0_2.index t (1 : Fin 4) * 2 + 1 * d.val = d.val; rw [e1]; omega
    | ⟨2, _⟩ => show win0_2.index t (2 : Fin 4) * 256 + 1 * k.val = k.val; rw [e2]; omega
    | ⟨3, _⟩ => show win0_2.index t (3 : Fin 4) * 512 + 1 * n.val = n.val; rw [e3]; omega
  rw [he]
  exact V_v2_apply m c l d k n

theorem blk3_apply (c : Dev nD) (t : Fin cfg0.N) (l : Fin 3) (d : Fin 2) (n : Fin 512) :
    iblk m c 3 t (ix3 l d n) = a3 m c (ix3 l d n) := by
  obtain ⟨-, -, -, -, -, -, -, -, e0, e1, e2, -⟩ := idx_facts t
  show V m c main_arg3 (((cfg0.win 3).blk t).view.emb (ix3 l d n)) = _
  have he : ((cfg0.win 3).blk t).view.emb (ix3 l d n) = ix3 l d n := by
    funext a; apply Fin.ext
    match a with
    | ⟨0, _⟩ => show win0_3.index t (0 : Fin 3) * 3 + 1 * l.val = l.val; rw [e0]; omega
    | ⟨1, _⟩ => show win0_3.index t (1 : Fin 3) * 2 + 1 * d.val = d.val; rw [e1]; omega
    | ⟨2, _⟩ => show win0_3.index t (2 : Fin 3) * 512 + 1 * n.val = n.val; rw [e2]; omega
  rw [he, V_main_arg3]

theorem blk4_apply (c : Dev nD) (t : Fin cfg0.N) (l : Fin 3) (d : Fin 2) (n : Fin 512) :
    iblk m c 4 t (ix3 l d n) = a4 m c (ix3 l d n) := by
  obtain ⟨-, -, -, -, -, -, -, -, -, -, -, e0, e1, e2, -⟩ := idx_facts t
  show V m c main_arg4 (((cfg0.win 4).blk t).view.emb (ix3 l d n)) = _
  have he : ((cfg0.win 4).blk t).view.emb (ix3 l d n) = ix3 l d n := by
    funext a; apply Fin.ext
    match a with
    | ⟨0, _⟩ => show win0_4.index t (0 : Fin 3) * 3 + 1 * l.val = l.val; rw [e0]; omega
    | ⟨1, _⟩ => show win0_4.index t (1 : Fin 3) * 2 + 1 * d.val = d.val; rw [e1]; omega
    | ⟨2, _⟩ => show win0_4.index t (2 : Fin 3) * 512 + 1 * n.val = n.val; rw [e2]; omega
  rw [he, V_main_arg4]

theorem blk5_apply (c : Dev nD) (t : Fin cfg0.N) (k : Fin 256) (q : Fin 2) :
    iblk m c 5 t (ix2 k q) = a5 m c (ix2 q k) := by
  obtain ⟨-, -, -, -, -, -, -, -, -, -, -, -, -, -, e0, e1, -⟩ := idx_facts t
  show V m c main_v3 (((cfg0.win 5).blk t).view.emb (ix2 k q)) = _
  have he : ((cfg0.win 5).blk t).view.emb (ix2 k q) = ix2 k q := by
    funext a; apply Fin.ext
    match a with
    | ⟨0, _⟩ => show win0_5.index t (0 : Fin 2) * 256 + 1 * k.val = k.val; rw [e0]; omega
    | ⟨1, _⟩ => show win0_5.index t (1 : Fin 2) * 2 + 1 * q.val = q.val; rw [e1]; omega
  rw [he]
  exact V_v3_apply m c k q

theorem blk6_apply (c : Dev nD) (t : Fin cfg0.N) (q : Fin 2) :
    iblk m c 6 t (ix2 (0 : Fin 1) q) = a6 m c (ix1 q) := by
  obtain ⟨-, -, -, -, -, -, -, -, -, -, -, -, -, -, -, -, e0, e1, -⟩ := idx_facts t
  show V m c main_v4 (((cfg0.win 6).blk t).view.emb (ix2 (0 : Fin 1) q)) = _
  have he : ((cfg0.win 6).blk t).view.emb (ix2 (0 : Fin 1) q) = ix2 (0 : Fin 1) q := by
    funext a; apply Fin.ext
    match a with
    | ⟨0, _⟩ => show win0_6.index t (0 : Fin 2) * 1 + 1 * 0 = 0; rw [e0]
    | ⟨1, _⟩ => show win0_6.index t (1 : Fin 2) * 2 + 1 * q.val = q.val; rw [e1]; omega
  rw [he]
  exact V_v4_apply m c q

/-! ## The output array -/

/-- What the `[65536, 2]` output holds after the launch: row `r` is the network at `x (r / 2048, r % 2048)`. -/
def G5 (c : Dev nD) : S65536x2.Idx → EReal := fun i =>
  rowOf (a0 m c) (a1 m c) (a2 m c) (a3 m c) (a4 m c) (a5 m c) (a6 m c)
    ⟨(i 0).val / 2048, by have : (i 0).val < 65536 := (i 0).isLt; omega⟩
    ⟨(i 0).val % 2048, Nat.mod_lt _ (by norm_num)⟩ ⟨(i 1).val, (i 1).isLt⟩

theorem G5_apply (c : Dev nD) (b : Fin 32) (p : Fin 2048) (q : Fin 2) (r : Fin 65536) (hr : r.val = b.val * 2048 + p.val) :
    G5 m c (ix2 r q) = rowOf (a0 m c) (a1 m c) (a2 m c) (a3 m c) (a4 m c) (a5 m c) (a6 m c) b p q := by
  have h1 : (⟨r.val / 2048, by have := r.isLt; omega⟩ : Fin 32) = b := Fin.ext (by show r.val / 2048 = b.val; have := p.isLt; omega)
  have h2 : (⟨r.val % 2048, Nat.mod_lt _ (by norm_num)⟩ : Fin 2048) = p := Fin.ext (by show r.val % 2048 = p.val; have := p.isLt; omega)
  show rowOf _ _ _ _ _ _ _ (⟨r.val / 2048, _⟩ : Fin 32) (⟨r.val % 2048, _⟩ : Fin 2048) (⟨q.val, _⟩ : Fin 2) = _
  rw [h1, h2]

/-- What point `t` writes back is block `t` of `G5`. -/
theorem flushed_eq (c : Dev nD) (t : Fin cfg0.N) :
    (dats m 0 c).flushed 7 t = ((cfg0.win 7).blk t).view.read (Elt Ideal) (G5 m c) := by
  show (cfg0.win 7).cut (grid0.coords t) ((dats m 0 c).after 7 t) = _
  rw [after0_7, Body.out_eq]
  obtain ⟨-, -, -, -, -, -, -, -, -, -, -, -, -, -, -, -, -, -, e0, e1⟩ := idx_facts t
  funext j
  obtain ⟨p, q, rfl⟩ : ∃ (p : Fin 2048) (q : Fin 2), j = ix2 p q := ⟨j 0, j 1, eq_ix2 j⟩
  show Body.bodyV (iblk m c 0 t) (iblk m c 1 t) (iblk m c 2 t) (iblk m c 3 t) (iblk m c 4 t) (iblk m c 5 t) (iblk m c 6 t) (ix2 p q)
    = G5 m c (((cfg0.win 7).blk t).view.emb (ix2 p q))
  have he : ((cfg0.win 7).blk t).view.emb (ix2 p q)
      = ix2 (⟨t.val * 2048 + p.val, by have := tlt t; have := p.isLt; omega⟩ : Fin 65536) q := by
    funext a; apply Fin.ext
    match a with
    | ⟨0, _⟩ => show win0_7.index t (0 : Fin 2) * 2048 + 1 * p.val = t.val * 2048 + p.val; rw [e0]; omega
    | ⟨1, _⟩ => show win0_7.index t (1 : Fin 2) * 2 + 1 * q.val = q.val; rw [e1]; omega
  rw [he, G5_apply m c ⟨t.val, tlt t⟩ p q _ rfl]
  refine (Body.bodyV_apply (iblk m c 0 t) (iblk m c 1 t) (iblk m c 2 t) (iblk m c 3 t) (iblk m c 4 t) (iblk m c 5 t) (iblk m c 6 t) p q).trans ?_
  unfold rowOf
  simp only [blk0_apply, blk1_apply, blk2_apply, blk3_apply, blk4_apply, blk5_apply, blk6_apply]

/-- An index of the output is in point `t`'s block iff each coordinate is in the block's range. -/
theorem mem_blk (t : Fin cfg0.N) (i : S65536x2.Idx) :
    i ∈ ((cfg0.win 7).blk t).view.set ↔ ∀ a : Fin 2, win0_7.index t a * S2048x2.size a ≤ (i a).val
      ∧ (i a).val < win0_7.index t a * S2048x2.size a + S2048x2.size a := by
  show i ∈ ((View.whole main_v5).slice (win0_7.rect t)).set ↔ _
  rw [View.set_slice_whole, Rect.mem_set_unit]
  exact Iff.rfl

/-- Every row of the output is in the block of the point `r / 2048`. -/
theorem cover (i : S65536x2.Idx) : ∃ t : Fin cfg0.N, (cfg0.win 7).flush t = true ∧ i ∈ ((cfg0.win 7).blk t).view.set := by
  have hi0 : (i 0).val < 65536 := (i 0).isLt
  have hi1 : (i 1).val < 2 := (i 1).isLt
  have ht : (i 0).val / 2048 < cfg0.N := by show (i 0).val / 2048 < 32; omega
  obtain ⟨-, -, -, -, -, -, -, -, -, -, -, -, -, -, -, -, -, -, e0, e1⟩ := idx_facts ⟨(i 0).val / 2048, ht⟩
  refine ⟨⟨(i 0).val / 2048, ht⟩, flush0_7 _, ?_⟩
  rw [mem_blk]
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, ht⟩ (1 : Fin 2) * 2 ≤ (i 1).val
      ∧ (i 1).val < win0_7.index ⟨(i 0).val / 2048, ht⟩ (1 : Fin 2) * 2 + 2
    rw [e1]; omega

/-- The output array after the launch. -/
theorem final (c : Dev nD) : (dats m 0 c).arrAt 7 cfg0.N = G5 m c :=
  (dats m 0 c).arrAt_eq_of_cover 7 (G5 m c) (fun t _ => flushed_eq m c t) cover

/-! ## The result after the re-layout -/

theorem tail_eq (c : Dev nD) :
    Pipeline.afterTail₀ cfgs (dats m) 0 (V0 m) [hostOps1] c main_v6
      = result (a0 m c) (a1 m c) (a2 m c) (a3 m c) (a4 m c) (a5 m c) (a6 m c) := by
  unfold Pipeline.afterTail₀
  show StableHlo.after hostOps1 _ (Proc.devRef .tc main_v6) = _
  after_results
  funext i
  obtain ⟨b, p, q, rfl⟩ : ∃ (b : Fin 32) (p : Fin 2048) (q : Fin 2), i = ix3 b p q := ⟨i 0, i 1, i 2, eq_ix3 i⟩
  have hW : Pipeline.withArrays (cfgs 0).spec c (V0 m c) (fun w => (dats m 0 c).arrAt w (cfgs 0).N) (Proc.devRef .tc main_v5)
      = G5 m c := (Pipeline.withArrays_arr spec0 launch0.win.arr_inj c _ _ 7).trans (final m c)
  show shapeCast S32x2048x2 (Pipeline.withArrays (cfgs 0).spec c (V0 m c) (fun w => (dats m 0 c).arrAt w (cfgs 0).N)
      (Proc.devRef .tc main_v5)) shapeCasts_S65536x2_S32x2048x2 (ix3 b p q)
    = rowOf (a0 m c) (a1 m c) (a2 m c) (a3 m c) (a4 m c) (a5 m c) (a6 m c) b p q
  refine (congrArg (fun X => shapeCast S32x2048x2 X shapeCasts_S65536x2_S32x2048x2 (ix3 b p q)) hW).trans ?_
  refine (Cert.MergeAxes.shapeCast_nc_abc_apply (G5 m c) _ b p q
    (⟨b.val * 2048 + p.val, by have := b.isLt; have := p.isLt; omega⟩ : Fin 65536) rfl).trans ?_
  exact G5_apply m c b p q _ rfl

/-! ## The run -/

/-- Every weakly fair execution of the program terminates with the result array at the network's value and the
    seven arguments unchanged. -/
theorem run : θ_run defs (onTc (τ := τ) (main (F := Ideal))) ⟨m, fun _ => 0, ρ⟩ (fun r => ∀ c : Dev nD,
      r.2.mem ((c : Thread nD τ).loc main_v6) = result (a0 m c) (a1 m c) (a2 m c) (a3 m c) (a4 m c) (a5 m c) (a6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.RefValue.lean ====
/-
  The reference's result, read at a batch entry `b`, a time step `t` and a class `c`.

  The reference computes on `[32, 2048, ·]` arrays: every `(b, t)` is a row, and the row's result depends on the one
  scalar `x (b, t)` only.  Its array functions — layer 0's gates (a product contracting an axis of extent one, then the
  two bias rows one after the other), a cell (the sigmoid spelt `1 / (1 + e^(-g))`), two hidden halves joined, a deeper
  layer's gates (a product with a 512 × 256 weight slab, then the two bias rows), the head — are read here at `(b, t, ·)`
  as the row-level functions of `LstmSpec`.
-/
import proofs.«119629_j36713380446230_1_alg».proof.Proof.Gen.ReferenceIdeal.Run
import proofs.«119629_j36713380446230_1_alg».proof.Proof.LstmSpec
import proofs.«119629_j36713380446230_1_alg».proof.Proof.LibRankThree
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.ValueIdx Cert.Lstm Cert.RankThree

/-- The word `0x3F800000` is the real number one. -/
theorem ofBits_one : Ideal.ofBits .f32 0x3F800000#32 = 1 := by
  simp [Ideal.ofBits, Ideal.ieee, -EReal.coe_mul]; norm_num

/-- The sigmoid spelt with a negation, an exponential, a sum and a quotient is the sigmoid. -/
theorem sigmoid_spelt (x : EReal) :
    Ideal.div (Ideal.ofBits .f32 0x3F800000#32) (Ideal.ofBits .f32 0x3F800000#32 + Ideal.exp (-x)) = Ideal.logistic x := by
  rw [ofBits_one]; rfl

/-! ## The array functions -/

/-- The array of ones. -/
def onesH : FVec Ideal S32x2048x128 .f32 :=
  broadcastInDim S32x2048x128 ![] bcast_S_S32x2048x128 (constant (F := Ideal) S_ .f32 0x3F800000#32)

/-- One cell on an array of gate rows. -/
def cellH (g : FVec Ideal S32x2048x512 .f32) : FVec Ideal S32x2048x128 .f32 :=
  mulf (Host.divf onesH (addf onesH (Host.exp (Host.negf (extractStridedSlice S32x2048x128 ![0, 0, 384] g slices_S32x2048x512_S32x2048x128_0_0_384)))))
    (Host.tanh (mulf (Host.divf onesH (addf onesH (Host.exp (Host.negf (extractStridedSlice S32x2048x128 ![0, 0, 0] g slices_S32x2048x512_S32x2048x128_0_0_0)))))
      (Host.tanh (extractStridedSlice S32x2048x128 ![0, 0, 256] g slices_S32x2048x512_S32x2048x128_0_0_256))))

/-- The two directions' hidden halves joined. -/
def hiddenH (gf gb : FVec Ideal S32x2048x512 .f32) : FVec Ideal S32x2048x256 .f32 :=
  concatenate S32x2048x256 2 [⟨S32x2048x128, cellH gf⟩, ⟨S32x2048x128, cellH gb⟩] concatenates_S32x2048x128_S32x2048x128_S32x2048x256_d2

/-- One bias row, picked out of the `[3, 2, 512]` array at the offsets `off`, repeated over every `(b, t)`. -/
def biasH (A : FVec Ideal S3x2x512 .f32) (off : Fin 3 → Nat) (hs : S3x2x512.Slices off S1x1x512) : FVec Ideal S32x2048x512 .f32 :=
  broadcastInDim S32x2048x512 ![0, 1, 2] bcast_S1x1x512_S32x2048x512_0_1_2
    (broadcastInDim S1x1x512 ![2] bcast_S512_S1x1x512_2 (shapeCast S512 (extractStridedSlice S1x1x512 off A hs) shapeCasts_S1x1x512_S512))

/-- Layer 0's gates for one direction. -/
def gates0H (X : FVec Ideal S32x2048 .f32) (A1 : FVec Ideal S2x512x1 .f32) (A3 A4 : FVec Ideal S3x2x512 .f32)
    (offw : Fin 3 → Nat) (hw : S2x512x1.Slices offw S1x512x1) (offb : Fin 3 → Nat) (hb : S3x2x512.Slices offb S1x1x512) :
    FVec Ideal S32x2048x512 .f32 :=
  addf (addf (Host.dotGeneral dot_S32x2048x1_S512x1_S32x2048x512_2_1_01_0_n_n none
        (broadcastInDim S32x2048x1 ![0, 1] bcast_S32x2048_S32x2048x1_0_1 X)
        (shapeCast S512x1 (extractStridedSlice S1x512x1 offw A1 hw) shapeCasts_S1x512x1_S512x1))
      (biasH A3 offb hb)) (biasH A4 offb hb)

/-- One layer's `[2, 512, 256]` weights out of the `[2, 2, 512, 256]` array. -/
def weightsH (A2 : FVec Ideal S2x2x512x256 .f32) (off : Fin 4 → Nat) (hs : S2x2x512x256.Slices off S1x2x512x256) : FVec Ideal S2x512x256 .f32 :=
  shapeCast S2x512x256 (extractStridedSlice S1x2x512x256 off A2 hs) shapeCasts_S1x2x512x256_S2x512x256

/-- A deeper layer's gates for one direction. -/
def gatesH (H : FVec Ideal S32x2048x256 .f32) (Wl : FVec Ideal S2x512x256 .f32) (A3 A4 : FVec Ideal S3x2x512 .f32)
    (offw : Fin 3 → Nat) (hw : S2x512x256.Slices offw S1x512x256) (offb : Fin 3 → Nat) (hb : S3x2x512.Slices offb S1x1x512) :
    FVec Ideal S32x2048x512 .f32 :=
  addf (addf (Host.dotGeneral dot_S32x2048x256_S512x256_S32x2048x512_2_1_01_0_n_n none H
        (shapeCast S512x256 (extractStridedSlice S1x512x256 offw Wl hw) shapeCasts_S1x512x256_S512x256))
      (biasH A3 offb hb)) (biasH A4 offb hb)

/-- The head. -/
def headH (H : FVec Ideal S32x2048x256 .f32) (A5 : FVec Ideal S2x256 .f32) (A6 : FVec Ideal S2 .f32) : FVec Ideal S32x2048x2 .f32 :=
  addf (Host.dotGeneral dot_S32x2048x256_S2x256_S32x2048x2_2_1_01_0_n_n none H A5)
    (broadcastInDim S32x2048x2 ![0, 1, 2] bcast_S1x1x2_S32x2048x2_0_1_2 (broadcastInDim S1x1x2 ![2] bcast_S2_S1x1x2_2 A6))

/-! ## Each read at a row -/

theorem onesH_apply (i : S32x2048x128.Idx) : onesH i = Ideal.ofBits .f32 0x3F800000#32 := by
  unfold onesH
  rw [broadcastInDim_scalar_apply]
  rfl

theorem cellH_apply (g : FVec Ideal S32x2048x512 .f32) (b : Fin 32) (t : Fin 2048) (j : Fin 128) :
    cellH g (ix3 b t j) = cell (fun n => g (ix3 b t n)) j := by
  unfold cellH cell
  show Ideal.div (onesH _) (onesH _ + Ideal.exp (-(extractStridedSlice S32x2048x128 ![0, 0, 384] g _ (ix3 b t j))))
      * Ideal.tanh (Ideal.div (onesH _) (onesH _ + Ideal.exp (-(extractStridedSlice S32x2048x128 ![0, 0, 0] g _ (ix3 b t j))))
        * Ideal.tanh (extractStridedSlice S32x2048x128 ![0, 0, 256] g _ (ix3 b t j))) = _
  rw [onesH_apply, sigmoid_spelt, sigmoid_spelt,
    slice3_axis2_apply 384 g _ b t j (lane 384 (by norm_num) j) rfl,
    slice3_axis2_apply 0 g _ b t j (lane 0 (by norm_num) j) rfl,
    slice3_axis2_apply 256 g _ b t j (lane 256 (by norm_num) j) rfl]

theorem hiddenH_apply (gf gb : FVec Ideal S32x2048x512 .f32) (b : Fin 32) (t : Fin 2048) (k : Fin 256) :
    hiddenH gf gb (ix3 b t k) = Lstm.hidden (fun n => gf (ix3 b t n)) (fun n => gb (ix3 b t n)) k := by
  unfold hiddenH Lstm.hidden join
  rw [concatenate3_axis2_apply _ _ _ (by norm_num) b t k]
  simp only [cellH_apply]

theorem biasH_apply (A : FVec Ideal S3x2x512 .f32) (l : Fin 3) (d : Fin 2) (hs : S3x2x512.Slices ![l.val, d.val, 0] S1x1x512)
    (b : Fin 32) (t : Fin 2048) (n : Fin 512) : biasH A ![l.val, d.val, 0] hs (ix3 b t n) = A (ix3 l d n) := by
  unfold biasH
  rw [broadcastInDim_11n_abn_apply, broadcastInDim_n_11n_apply, shapeCast_11n_n_apply,
    slice3_pick01_apply l.val d.val A hs 0 0 n l d rfl rfl]

theorem gates0H_apply (X : FVec Ideal S32x2048 .f32) (A1 : FVec Ideal S2x512x1 .f32) (A3 A4 : FVec Ideal S3x2x512 .f32)
    (d : Fin 2) (hw : S2x512x1.Slices ![d.val, 0, 0] S1x512x1) (hb : S3x2x512.Slices ![(0 : Fin 3).val, d.val, 0] S1x1x512)
    (b : Fin 32) (t : Fin 2048) (n : Fin 512) :
    gates0H X A1 A3 A4 ![d.val, 0, 0] hw ![(0 : Fin 3).val, d.val, 0] hb (ix3 b t n)
      = gates0 (X (ix2 b t)) (fun n => A1 (ix3 d n (0 : Fin 1))) (fun n => A3 (ix3 (0 : Fin 3) d n)) (fun n => A4 (ix3 (0 : Fin 3) d n)) n := by
  unfold gates0H gates0
  rw [addf_apply, addf_apply, biasH_apply, biasH_apply,
    show Host.dotGeneral dot_S32x2048x1_S512x1_S32x2048x512_2_1_01_0_n_n none
        (broadcastInDim S32x2048x1 ![0, 1] bcast_S32x2048_S32x2048x1_0_1 X)
        (shapeCast S512x1 (extractStridedSlice S1x512x1 ![d.val, 0, 0] A1 hw) shapeCasts_S1x512x1_S512x1) (ix3 b t n) = _
      from dotGeneral_abk_nk_apply dot_S32x2048x1_S512x1_S32x2048x512_2_1_01_0_n_n_wf none _ _ b t n,
    Fin.sum_univ_one, broadcastInDim_ab_ab1_apply, shapeCast_1ab_ab_apply,
    slice3_pick0_apply d.val A1 hw 0 n 0 d rfl]

theorem weightsH_apply (A2 : FVec Ideal S2x2x512x256 .f32) (l : Fin 2) (hs : S2x2x512x256.Slices ![l.val, 0, 0, 0] S1x2x512x256)
    (d : Fin 2) (n : Fin 512) (k : Fin 256) : weightsH A2 ![l.val, 0, 0, 0] hs (ix3 d n k) = A2 (ix4 l d n k) := by
  unfold weightsH
  rw [shapeCast_1abc_abc_apply, slice4_pick0_apply l.val A2 hs 0 d n k l rfl]

theorem gatesH_apply (H : FVec Ideal S32x2048x256 .f32) (Wl : FVec Ideal S2x512x256 .f32) (A3 A4 : FVec Ideal S3x2x512 .f32)
    (l : Fin 3) (d : Fin 2) (hw : S2x512x256.Slices ![d.val, 0, 0] S1x512x256) (hb : S3x2x512.Slices ![l.val, d.val, 0] S1x1x512)
    (b : Fin 32) (t : Fin 2048) (n : Fin 512) :
    gatesH H Wl A3 A4 ![d.val, 0, 0] hw ![l.val, d.val, 0] hb (ix3 b t n)
      = gates (fun k => H (ix3 b t k)) (fun n k => Wl (ix3 d n k)) (fun n => A3 (ix3 l d n)) (fun n => A4 (ix3 l d n)) n := by
  unfold gatesH gates
  rw [addf_apply, addf_apply, biasH_apply, biasH_apply,
    show Host.dotGeneral dot_S32x2048x256_S512x256_S32x2048x512_2_1_01_0_n_n none H
        (shapeCast S512x256 (extractStridedSlice S1x512x256 ![d.val, 0, 0] Wl hw) shapeCasts_S1x512x256_S512x256) (ix3 b t n) = _
      from dotGeneral_abk_nk_apply dot_S32x2048x256_S512x256_S32x2048x512_2_1_01_0_n_n_wf none _ _ b t n]
  simp only [shapeCast_1ab_ab_apply, slice3_pick0_apply d.val Wl hw 0 _ _ d rfl]

theorem headH_apply (H : FVec Ideal S32x2048x256 .f32) (A5 : FVec Ideal S2x256 .f32) (A6 : FVec Ideal S2 .f32)
    (b : Fin 32) (t : Fin 2048) (c : Fin 2) :
    headH H A5 A6 (ix3 b t c) = head (fun k => H (ix3 b t k)) (fun c k => A5 (ix2 c k)) (fun c => A6 (ix1 c)) c := by
  unfold headH head
  rw [addf_apply, broadcastInDim_11n_abn_apply, broadcastInDim_n_11n_apply,
    show Host.dotGeneral dot_S32x2048x256_S2x256_S32x2048x2_2_1_01_0_n_n none H A5 (ix3 b t c) = _
      from dotGeneral_abk_nk_apply dot_S32x2048x256_S2x256_S32x2048x2_2_1_01_0_n_n_wf none _ _ b t c]

/-! ## The run's intermediate arrays, read at a row -/

variable (V0 : Valuation τ sig (Elt Ideal))

/-- The seven argument arrays as the run finds them. -/
abbrev a0 : FVec Ideal S32x2048 .f32 := V0 (Proc.devRef .tc main_arg0)
abbrev a1 : FVec Ideal S2x512x1 .f32 := V0 (Proc.devRef .tc main_arg1)
abbrev a2 : FVec Ideal S2x2x512x256 .f32 := V0 (Proc.devRef .tc main_arg2)
abbrev a3 : FVec Ideal S3x2x512 .f32 := V0 (Proc.devRef .tc main_arg3)
abbrev a4 : FVec Ideal S3x2x512 .f32 := V0 (Proc.devRef .tc main_arg4)
abbrev a5 : FVec Ideal S2x256 .f32 := V0 (Proc.devRef .tc main_arg5)
abbrev a6 : FVec Ideal S2 .f32 := V0 (Proc.devRef .tc main_arg6)

theorem res13_apply (b : Fin 32) (t : Fin 2048) (n : Fin 512) :
    res_main_v13 V0 (ix3 b t n)
      = gates0 (a0 V0 (ix2 b t)) (fun n => a1 V0 (ix3 (0 : Fin 2) n (0 : Fin 1))) (fun n => a3 V0 (ix3 (0 : Fin 3) (0 : Fin 2) n))
          (fun n => a4 V0 (ix3 (0 : Fin 3) (0 : Fin 2) n)) n :=
  gates0H_apply (a0 V0) (a1 V0) (a3 V0) (a4 V0) 0 slices_S2x512x1_S1x512x1_0_0_0 slices_S3x2x512_S1x1x512_0_0_0 b t n

theorem res46_apply (b : Fin 32) (t : Fin 2048) (n : Fin 512) :
    res_main_v46 V0 (ix3 b t n)
      = gates0 (a0 V0 (ix2 b t)) (fun n => a1 V0 (ix3 (1 : Fin 2) n (0 : Fin 1))) (fun n => a3 V0 (ix3 (0 : Fin 3) (1 : Fin 2) n))
          (fun n => a4 V0 (ix3 (0 : Fin 3) (1 : Fin 2) n)) n :=
  gates0H_apply (a0 V0) (a1 V0) (a3 V0) (a4 V0) 1 slices_S2x512x1_S1x512x1_1_0_0 slices_S3x2x512_S1x1x512_0_1_0 b t n

theorem res67_apply (b : Fin 32) (t : Fin 2048) (k : Fin 256) :
    res_main_v67 V0 (ix3 b t k)
      = hidden0 (a0 V0 (ix2 b t)) (fun d n => a1 V0 (ix3 d n (0 : Fin 1))) (fun d n => a3 V0 (ix3 (0 : Fin 3) d n))
          (fun d n => a4 V0 (ix3 (0 : Fin 3) d n)) k := by
  show hiddenH (res_main_v13 V0) (res_main_v46 V0) (ix3 b t k) = _
  unfold hidden0
  rw [hiddenH_apply]
  simp only [res13_apply, res46_apply]

theorem res69_apply (d : Fin 2) (n : Fin 512) (k : Fin 256) : res_main_v69 V0 (ix3 d n k) = a2 V0 (ix4 (0 : Fin 2) d n k) :=
  weightsH_apply (a2 V0) 0 slices_S2x2x512x256_S1x2x512x256_0_0_0_0 d n k

theorem res138_apply (d : Fin 2) (n : Fin 512) (k : Fin 256) : res_main_v138 V0 (ix3 d n k) = a2 V0 (ix4 (1 : Fin 2) d n k) :=
  weightsH_apply (a2 V0) 1 slices_S2x2x512x256_S1x2x512x256_1_0_0_0 d n k

theorem res82_apply (b : Fin 32) (t : Fin 2048) (n : Fin 512) :
    res_main_v82 V0 (ix3 b t n)
      = gates (fun k => res_main_v67 V0 (ix3 b t k)) (fun n k => res_main_v69 V0 (ix3 (0 : Fin 2) n k))
          (fun n => a3 V0 (ix3 (1 : Fin 3) (0 : Fin 2) n)) (fun n => a4 V0 (ix3 (1 : Fin 3) (0 : Fin 2) n)) n :=
  gatesH_apply (res_main_v67 V0) (res_main_v69 V0) (a3 V0) (a4 V0) 1 0 slices_S2x512x256_S1x512x256_0_0_0 slices_S3x2x512_S1x1x512_1_0_0 b t n

theorem res115_apply (b : Fin 32) (t : Fin 2048) (n : Fin 512) :
    res_main_v115 V0 (ix3 b t n)
      = gates (fun k => res_main_v67 V0 (ix3 b t k)) (fun n k => res_main_v69 V0 (ix3 (1 : Fin 2) n k))
          (fun n => a3 V0 (ix3 (1 : Fin 3) (1 : Fin 2) n)) (fun n => a4 V0 (ix3 (1 : Fin 3) (1 : Fin 2) n)) n :=
  gatesH_apply (res_main_v67 V0) (res_main_v69 V0) (a3 V0) (a4 V0) 1 1 slices_S2x512x256_S1x512x256_1_0_0 slices_S3x2x512_S1x1x512_1_1_0 b t n

theorem res136_apply (b : Fin 32) (t : Fin 2048) (k : Fin 256) :
    res_main_v136 V0 (ix3 b t k)
      = hiddenN (hidden0 (a0 V0 (ix2 b t)) (fun d n => a1 V0 (ix3 d n (0 : Fin 1))) (fun d n => a3 V0 (ix3 (0 : Fin 3) d n))
            (fun d n => a4 V0 (ix3 (0 : Fin 3) d n)))
          (fun d n k => a2 V0 (ix4 (0 : Fin 2) d n k)) (fun d n => a3 V0 (ix3 (1 : Fin 3) d n)) (fun d n => a4 V0 (ix3 (1 : Fin 3) d n)) k := by
  show hiddenH (res_main_v82 V0) (res_main_v115 V0) (ix3 b t k) = _
  unfold hiddenN
  rw [hiddenH_apply]
  simp only [res82_apply, res115_apply, res67_apply, res69_apply]

theorem res151_apply (b : Fin 32) (t : Fin 2048) (n : Fin 512) :
    res_main_v151 V0 (ix3 b t n)
      = gates (fun k => res_main_v136 V0 (ix3 b t k)) (fun n k => res_main_v138 V0 (ix3 (0 : Fin 2) n k))
          (fun n => a3 V0 (ix3 (2 : Fin 3) (0 : Fin 2) n)) (fun n => a4 V0 (ix3 (2 : Fin 3) (0 : Fin 2) n)) n :=
  gatesH_apply (res_main_v136 V0) (res_main_v138 V0) (a3 V0) (a4 V0) 2 0 slices_S2x512x256_S1x512x256_0_0_0 slices_S3x2x512_S1x1x512_2_0_0 b t n

theorem res184_apply (b : Fin 32) (t : Fin 2048) (n : Fin 512) :
    res_main_v184 V0 (ix3 b t n)
      = gates (fun k => res_main_v136 V0 (ix3 b t k)) (fun n k => res_main_v138 V0 (ix3 (1 : Fin 2) n k))
          (fun n => a3 V0 (ix3 (2 : Fin 3) (1 : Fin 2) n)) (fun n => a4 V0 (ix3 (2 : Fin 3) (1 : Fin 2) n)) n :=
  gatesH_apply (res_main_v136 V0) (res_main_v138 V0) (a3 V0) (a4 V0) 2 1 slices_S2x512x256_S1x512x256_1_0_0 slices_S3x2x512_S1x1x512_2_1_0 b t n

/-- The run's result array as the head over layer 2's joined halves. -/
def refTerm : FVec Ideal S32x2048x2 .f32 :=
  headH (hiddenH (res_main_v151 V0) (res_main_v184 V0)) (a5 V0) (a6 V0)

/-- The reference's result at `(b, t, c)` is the network at `x (b, t)`. -/
theorem refTerm_apply (b : Fin 32) (t : Fin 2048) (c : Fin 2) :
    refTerm V0 (ix3 b t c) = rowOf (a0 V0) (a1 V0) (a2 V0) (a3 V0) (a4 V0) (a5 V0) (a6 V0) b t c := by
  unfold refTerm rowOf row hiddenN
  rw [headH_apply]
  simp only [hiddenH_apply, res151_apply, res184_apply, res136_apply, res138_apply, hiddenN]

theorem refTerm_eq : refTerm V0 = result (a0 V0) (a1 V0) (a2 V0) (a3 V0) (a4 V0) (a5 V0) (a6 V0) := by
  funext i
  obtain ⟨b, t, c, rfl⟩ : ∃ (b : Fin 32) (t : Fin 2048) (c : Fin 2), i = ix3 b t c := ⟨i 0, i 1, i 2, eq_ix3 i⟩
  exact refTerm_apply V0 b t c

/-! ## The run -/

section Run
open Idealize.ShloMosaic.TcCoe Idealize.SL.Sem Idealize.ShloMosaic.StableHlo

variable (m : (ℓ : Loc nD τ sig) → Buf (Elt Ideal) ℓ) (ρ : Dev nD → PrngReg)

/-- The seven argument arrays on core `c`, as launched. -/
abbrev b0 (c : Dev nD) : FVec Ideal S32x2048 .f32 := m ((c : Thread nD τ).loc main_arg0)
abbrev b1 (c : Dev nD) : FVec Ideal S2x512x1 .f32 := m ((c : Thread nD τ).loc main_arg1)
abbrev b2 (c : Dev nD) : FVec Ideal S2x2x512x256 .f32 := m ((c : Thread nD τ).loc main_arg2)
abbrev b3 (c : Dev nD) : FVec Ideal S3x2x512 .f32 := m ((c : Thread nD τ).loc main_arg3)
abbrev b4 (c : Dev nD) : FVec Ideal S3x2x512 .f32 := m ((c : Thread nD τ).loc main_arg4)
abbrev b5 (c : Dev nD) : FVec Ideal S2x256 .f32 := m ((c : Thread nD τ).loc main_arg5)
abbrev b6 (c : Dev nD) : FVec Ideal S2 .f32 := m ((c : Thread nD τ).loc main_arg6)

/-- The run's result term is the head over layer 2's joined halves. -/
theorem result_eq (c : Dev nD) :
    refTerm (launchContents m c) = result (b0 m c) (b1 m c) (b2 m c) (b3 m c) (b4 m c) (b5 m c) (b6 m c) :=
  refTerm_eq (launchContents m c)

/-- Every weakly fair execution of the reference terminates with the result array at the network's value and the
    seven arguments unchanged. -/
theorem run : θ_run defs (onTc (τ := τ) (main (F := Ideal))) ⟨m, fun _ => 0, ρ⟩ (fun r => ∀ c : Dev nD,
      r.2.mem ((c : Thread nD τ).loc main_v209) = result (b0 m c) (b1 m c) (b2 m c) (b3 m c) (b4 m c) (b5 m c) (b6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨(h c).1.trans (result_eq m c), (h c).2⟩) (Value.run (F := Ideal) m ρ)

end Run

end Cert.ReferenceIdeal.RefValue

end
-- ==== Proof.lean ====
/-
  A stateless three-layer bidirectional LSTM step with a linear head, as a blocked kernel and as array code.

  Both programs compute, for every batch entry `b` and time step `t`, a function of the ONE scalar `x (b, t)`: each
  layer starts from zero hidden and cell state, so a cell's hidden lanes are `σ(o) · tanh (σ(i) · tanh (g))` of its gate
  pre-activations, layer 0's gates are `x · w + b + b'`, a deeper layer's are a 512 × 256 matrix against the 256 hidden
  lanes of the layer below plus the two biases, and the head is a 2 × 256 matrix plus a bias (`LstmSpec`).

  The kernel works on 32 blocks of 2048 rows of the input re-laid as a column, with the weights re-laid or transposed
  beforehand, and re-lays its `[65536, 2]` output as `[32, 2048, 2]`; its matrix products into a zero accumulator are
  plain sums at the ideal values, and its one-operation sigmoid is `1 / (1 + e^(-g))`.  The reference works on
  `[32, 2048, ·]` arrays, spells the sigmoid with a negation, an exponential, a sum and a quotient, and contracts an axis
  of extent one in layer 0.  Read at an index both are the same row-level function of the same entries of the seven
  argument arrays; the one place the two differ as expressions is layer 0's bias, `x · w + (b + b')` in the kernel and
  `(x · w + b) + b'` in the reference, equal because addition of extended reals is associative.  No step needs the
  inputs to be finite.

  `KernelBody` reads the body's output block at a row, `KernelRun` the program's result array after the run,
  `RefValue` the reference's; here the three frames, the (empty) list of idealization steps, and the equality of the
  two results are put together.
-/
import proofs.«119629_j36713380446230_1_alg».proof.Defs
import proofs.«119629_j36713380446230_1_alg».proof.Proof.Gen.Kernel
import proofs.«119629_j36713380446230_1_alg».proof.Proof.Gen.Kernel.Skeleton
import proofs.«119629_j36713380446230_1_alg».proof.Proof.Gen.Kernel.Launch
import proofs.«119629_j36713380446230_1_alg».proof.Proof.Gen.Kernel.Points
import proofs.«119629_j36713380446230_1_alg».proof.Proof.Gen.Kernel.Frame
import proofs.«119629_j36713380446230_1_alg».proof.Proof.Gen.KernelIdeal
import proofs.«119629_j36713380446230_1_alg».proof.Proof.Gen.KernelIdeal.Skeleton
import proofs.«119629_j36713380446230_1_alg».proof.Proof.Gen.KernelIdeal.Launch
import proofs.«119629_j36713380446230_1_alg».proof.Proof.Gen.KernelIdeal.Points
import proofs.«119629_j36713380446230_1_alg».proof.Proof.Gen.KernelIdeal.Frame
import proofs.«119629_j36713380446230_1_alg».proof.Proof.Gen.ReferenceIdeal
import proofs.«119629_j36713380446230_1_alg».proof.Proof.Gen.ReferenceIdeal.Run
import proofs.«119629_j36713380446230_1_alg».proof.Proof.Gen.Pre_finite_inputs
import proofs.«119629_j36713380446230_1_alg».proof.Proof.KernelRun
import proofs.«119629_j36713380446230_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the network's value of its arguments, and so does the reference's, of arguments
    that agree. -/
theorem algebraic : Cert.algebraic_KernelIdeal_ReferenceIdeal := by
  intro m ρ m' ρ' _ hagree
  refine ⟨fun c => Cert.Lstm.result (Cert.KernelIdeal.RunValue.a0 m c) (Cert.KernelIdeal.RunValue.a1 m c)
      (Cert.KernelIdeal.RunValue.a2 m c) (Cert.KernelIdeal.RunValue.a3 m c) (Cert.KernelIdeal.RunValue.a4 m c)
      (Cert.KernelIdeal.RunValue.a5 m c) (Cert.KernelIdeal.RunValue.a6 m c), Cert.KernelIdeal.RunValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6⟩ := hagree c
  have h0 : Cert.ReferenceIdeal.RefValue.b0 m' c = Cert.KernelIdeal.RunValue.a0 m c := e0
  have h1 : Cert.ReferenceIdeal.RefValue.b1 m' c = Cert.KernelIdeal.RunValue.a1 m c := e1
  have h2 : Cert.ReferenceIdeal.RefValue.b2 m' c = Cert.KernelIdeal.RunValue.a2 m c := e2
  have h3 : Cert.ReferenceIdeal.RefValue.b3 m' c = Cert.KernelIdeal.RunValue.a3 m c := e3
  have h4 : Cert.ReferenceIdeal.RefValue.b4 m' c = Cert.KernelIdeal.RunValue.a4 m c := e4
  have h5 : Cert.ReferenceIdeal.RefValue.b5 m' c = Cert.KernelIdeal.RunValue.a5 m c := e5
  have h6 : Cert.ReferenceIdeal.RefValue.b6 m' c = Cert.KernelIdeal.RunValue.a6 m c := e6
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
